-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000x4 : Shape := ⟨2, ![2000000, 4]⟩
abbrev S2000000x1 : Shape := ⟨2, ![2000000, 1]⟩
abbrev S2000000x32 : Shape := ⟨2, ![2000000, 32]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩
abbrev S2000000 : Shape := ⟨1, ![2000000]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000x4 : S_.BroadcastsInDim S2000000x4 (![] : Fin 0 → Fin S2000000x4.rank)
  reducesTo_S2000000x4_S_d0_1 : S2000000x4.ReducesTo [0, 1] S_
  bcast_S_S2000000x1 : S_.BroadcastsInDim S2000000x1 (![] : Fin 0 → Fin S2000000x1.rank)
  reducesTo_S2000000x1_S_d0_1 : S2000000x1.ReducesTo [0, 1] S_
  bcast_S_S2000000x32 : S_.BroadcastsInDim S2000000x32 (![] : Fin 0 → Fin S2000000x32.rank)
  reducesTo_S2000000x32_S_d0_1 : S2000000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  reducesTo_S2000000x4_S2000000_d1 : S2000000x4.ReducesTo [1] S2000000
  bcast_S_S2000000 : S_.BroadcastsInDim S2000000 (![] : Fin 0 → Fin S2000000.rank)
  reducesTo_S2000000_S_d0 : S2000000.ReducesTo [0] S_

variable [Facts]

def fn_part3 {F : FTy → Type} [FloatOps F] (main_arg2 : FVec F S2000000x4 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S2000000x4 .f32 := mulf main_arg2 main_arg2
  let main_cst_20 : FVec F S_ .f32 := constant S_ .f32 0x00000000#32
  let main_v55 : FVec F S2000000 .f32 := (fun x v => Host.reduceAdd x v reducesTo_S2000000x4_S2000000_d1 h_S_) main_v54 main_cst_20
  let main_cst_21 : FVec F S_ .f32 := constant S_ .f32 0x00000000#32
  let main_v56 : FVec F S2000000 .f32 := broadcastInDim S2000000 ![] bcast_S_S2000000 main_cst_21
  let main_v57 : IVec S2000000 1 := cmpf .ogt main_v55 main_v56
  let main_c_22 : IVec S_ 1 := constantI S_ 1 1#1
  let main_v58 : IVec S_ 1 := (fun x v => Host.reduce IntOp.andi x v reducesTo_S2000000_S_d0 h_S_) main_v57 main_c_22
  let main_v59 : IVec S_ 1 := andi main_v53 main_v58
  main_v59

def fn_part2 {F : FTy → Type} [FloatOps F] (main_arg2 : FVec F S2000000x4 .f32) (main_arg7 : FVec F S64x32 .f32) (main_arg8 : FVec F S32 .f32) (main_arg9 : FVec F S32x3 .f32) (main_arg10 : FVec F S3 .f32) (main_v33 : IVec S_ 1) : IVec S_ 1 :=
  let main_v34 : FVec F S64x32 .f32 := Host.absf main_arg7
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x3 .f32 := Host.absf main_arg9
  let main_cst_16 : FVec F S_ .f32 := constant S_ .f32 0x7F800000#32
  let main_v45 : FVec F S32x3 .f32 := broadcastInDim S32x3 ![] bcast_S_S32x3 main_cst_16
  let main_v46 : IVec S32x3 1 := cmpf .olt main_v44 main_v45
  let main_c_17 : IVec S_ 1 := constantI S_ 1 1#1
  let main_v47 : IVec S_ 1 := (fun x v => Host.reduce IntOp.andi x v reducesTo_S32x3_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_arg2 main_v48 main_v49 main_v50

def fn_part1 {F : FTy → Type} [FloatOps F] (main_arg2 : FVec F S2000000x4 .f32) (main_arg4 : FVec F S2000000x32 .f32) (main_arg5 : FVec F S32x64 .f32) (main_arg6 : FVec F S64 .f32) (main_arg7 : FVec F S64x32 .f32) (main_arg8 : FVec F S32 .f32) (main_arg9 : FVec F S32x3 .f32) (main_arg10 : FVec F S3 .f32) (main_v13 : IVec S_ 1) (main_v16 : IVec S2000000x1 1) : IVec S_ 1 :=
  let main_c_5 : IVec S_ 1 := constantI S_ 1 1#1
  let main_v17 : IVec S_ 1 := (fun x v => Host.reduce IntOp.andi x v reducesTo_S2000000x1_S_d0_1 h_S_) main_v16 main_c_5
  let main_v18 : IVec S_ 1 := andi main_v13 main_v17
  let main_v19 : FVec F S2000000x32 .f32 := Host.absf main_arg4
  let main_cst_6 : FVec F S_ .f32 := constant S_ .f32 0x7F800000#32
  let main_v20 : FVec F S2000000x32 .f32 := broadcastInDim S2000000x32 ![] bcast_S_S2000000x32 main_cst_6
  let main_v21 : IVec S2000000x32 1 := cmpf .olt main_v19 main_v20
  let main_c_7 : IVec S_ 1 := constantI S_ 1 1#1
  let main_v22 : IVec S_ 1 := (fun x v => Host.reduce IntOp.andi x v reducesTo_S2000000x32_S_d0_1 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg7 main_arg8 main_arg9 main_arg10 main_v33

def fn {F : FTy → Type} [FloatOps F] (main_arg0 : FVec F S2000000x3 .f32) (main_arg1 : FVec F S2000000x3 .f32) (main_arg2 : FVec F S2000000x4 .f32) (main_arg3 : FVec F S2000000x1 .f32) (main_arg4 : FVec F S2000000x32 .f32) (main_arg5 : FVec F S32x64 .f32) (main_arg6 : FVec F S64 .f32) (main_arg7 : FVec F S64x32 .f32) (main_arg8 : FVec F S32 .f32) (main_arg9 : FVec F S32x3 .f32) (main_arg10 : FVec F S3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x4 .f32 := Host.absf main_arg2
  let main_cst_2 : FVec F S_ .f32 := constant S_ .f32 0x7F800000#32
  let main_v10 : FVec F S2000000x4 .f32 := broadcastInDim S2000000x4 ![] bcast_S_S2000000x4 main_cst_2
  let main_v11 : IVec S2000000x4 1 := cmpf .olt main_v9 main_v10
  let main_c_3 : IVec S_ 1 := constantI S_ 1 1#1
  let main_v12 : IVec S_ 1 := (fun x v => Host.reduce IntOp.andi x v reducesTo_S2000000x4_S_d0_1 h_S_) main_v11 main_c_3
  let main_v13 : IVec S_ 1 := andi main_v8 main_v12
  let main_v14 : FVec F S2000000x1 .f32 := Host.absf main_arg3
  let main_cst_4 : FVec F S_ .f32 := constant S_ .f32 0x7F800000#32
  let main_v15 : FVec F S2000000x1 .f32 := broadcastInDim S2000000x1 ![] bcast_S_S2000000x1 main_cst_4
  let main_v16 : IVec S2000000x1 1 := cmpf .olt main_v14 main_v15
  fn_part1 (F := F) main_arg2 main_arg4 main_arg5 main_arg6 main_arg7 main_arg8 main_arg9 main_arg10 main_v13 main_v16
-- ==== Kernel.lean ====
abbrev S2000000x3 : Shape := ⟨2, ![2000000, 3]⟩
abbrev S2000000x4 : Shape := ⟨2, ![2000000, 4]⟩
abbrev S2000000x1 : Shape := ⟨2, ![2000000, 1]⟩
abbrev S2000000x32 : Shape := ⟨2, ![2000000, 32]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S3x32 : Shape := ⟨2, ![3, 32]⟩
abbrev S64x1 : Shape := ⟨2, ![64, 1]⟩
abbrev S32x1 : Shape := ⟨2, ![32, 1]⟩
abbrev S3x1 : Shape := ⟨2, ![3, 1]⟩
abbrev S23x2000000 : Shape := ⟨2, ![23, 2000000]⟩
abbrev S16000x3 : Shape := ⟨2, ![16000, 3]⟩
abbrev S16000x4 : Shape := ⟨2, ![16000, 4]⟩
abbrev S16000x1 : Shape := ⟨2, ![16000, 1]⟩
abbrev S16000x32 : Shape := ⟨2, ![16000, 32]⟩
abbrev S23x16000 : Shape := ⟨2, ![23, 16000]⟩
abbrev S3x16000 : Shape := ⟨2, ![3, 16000]⟩
abbrev S4x16000 : Shape := ⟨2, ![4, 16000]⟩
abbrev S1x16000 : Shape := ⟨2, ![1, 16000]⟩
abbrev S32x16000 : Shape := ⟨2, ![32, 16000]⟩
abbrev S16000 : Shape := ⟨1, ![16000]⟩
abbrev S64x16000 : Shape := ⟨2, ![64, 16000]⟩
abbrev S2000000x23 : Shape := ⟨2, ![2000000, 23]⟩

abbrev nBuf : Space → Nat
  | .hbm => 19
  | .vmem => 18
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000x4, .f32⟩
  | .hbm, ⟨3, _⟩ => ⟨S2000000x1, .f32⟩
  | .hbm, ⟨4, _⟩ => ⟨S2000000x32, .f32⟩
  | .hbm, ⟨5, _⟩ => ⟨S32x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x3, .f32⟩
  | .hbm, ⟨10, _⟩ => ⟨S3, .f32⟩
  | .hbm, ⟨11, _⟩ => ⟨S64x32, .f32⟩
  | .hbm, ⟨12, _⟩ => ⟨S32x64, .f32⟩
  | .hbm, ⟨13, _⟩ => ⟨S3x32, .f32⟩
  | .hbm, ⟨14, _⟩ => ⟨S64x1, .f32⟩
  | .hbm, ⟨15, _⟩ => ⟨S32x1, .f32⟩
  | .hbm, ⟨16, _⟩ => ⟨S3x1, .f32⟩
  | .hbm, ⟨17, _⟩ => ⟨S23x2000000, .f32⟩
  | .hbm, ⟨18, _⟩ => ⟨S2000000x23, .f32⟩
  | .local _ .vmem, ⟨0, _⟩ => ⟨S16000x3, .f32⟩
  | .local _ .vmem, ⟨1, _⟩ => ⟨S16000x3, .f32⟩
  | .local _ .vmem, ⟨2, _⟩ => ⟨S16000x3, .f32⟩
  | .local _ .vmem, ⟨3, _⟩ => ⟨S16000x3, .f32⟩
  | .local _ .vmem, ⟨4, _⟩ => ⟨S16000x4, .f32⟩
  | .local _ .vmem, ⟨5, _⟩ => ⟨S16000x4, .f32⟩
  | .local _ .vmem, ⟨6, _⟩ => ⟨S16000x1, .f32⟩
  | .local _ .vmem, ⟨7, _⟩ => ⟨S16000x1, .f32⟩
  | .local _ .vmem, ⟨8, _⟩ => ⟨S16000x32, .f32⟩
  | .local _ .vmem, ⟨9, _⟩ => ⟨S16000x32, .f32⟩
  | .local _ .vmem, ⟨10, _⟩ => ⟨S64x32, .f32⟩
  | .local _ .vmem, ⟨11, _⟩ => ⟨S64x1, .f32⟩
  | .local _ .vmem, ⟨12, _⟩ => ⟨S32x64, .f32⟩
  | .local _ .vmem, ⟨13, _⟩ => ⟨S32x1, .f32⟩
  | .local _ .vmem, ⟨14, _⟩ => ⟨S3x32, .f32⟩
  | .local _ .vmem, ⟨15, _⟩ => ⟨S3x1, .f32⟩
  | .local _ .vmem, ⟨16, _⟩ => ⟨S23x16000, .f32⟩
  | .local _ .vmem, ⟨17, _⟩ => ⟨S23x16000, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S23x16000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S32x64_S64x32_1_0 : S32x64.Transposes [1, 0] S64x32
  transposes_S64x32_S32x64_1_0 : S64x32.Transposes [1, 0] S32x64
  transposes_S32x3_S3x32_1_0 : S32x3.Transposes [1, 0] S3x32
  shapeCasts_S64_S64x1 : S64.ShapeCasts S64x1
  shapeCasts_S32_S32x1 : S32.ShapeCasts S32x1
  shapeCasts_S3_S3x1 : S3.ShapeCasts S3x1
  inb_S16000x3_S16000x3_0_0 : ∀ a, (![0, 0] : Fin 2 → Nat) a + S16000x3.size a ≤ S16000x3.size a
  h_S16000x3 : 0 < S16000x3.numel
  transposes_S16000x3_p1_0_S3x16000 : S16000x3.Transposes [1, 0] S3x16000
  inb_S16000x4_S16000x4_0_0 : ∀ a, (![0, 0] : Fin 2 → Nat) a + S16000x4.size a ≤ S16000x4.size a
  h_S16000x4 : 0 < S16000x4.numel
  transposes_S16000x4_p1_0_S4x16000 : S16000x4.Transposes [1, 0] S4x16000
  inb_S16000x1_S16000x1_0_0 : ∀ a, (![0, 0] : Fin 2 → Nat) a + S16000x1.size a ≤ S16000x1.size a
  h_S16000x1 : 0 < S16000x1.numel
  transposes_S16000x1_p1_0_S1x16000 : S16000x1.Transposes [1, 0] S1x16000
  inb_S16000x32_S16000x32_0_0 : ∀ a, (![0, 0] : Fin 2 → Nat) a + S16000x32.size a ≤ S16000x32.size a
  h_S16000x32 : 0 < S16000x32.numel
  transposes_S16000x32_p1_0_S32x16000 : S16000x32.Transposes [1, 0] S32x16000
  reduces_S4x16000_S16000 : S4x16000.Reduces [0] S16000
  shapeCasts_S16000_S1x16000 : S16000.ShapeCasts S1x16000
  broadcasts_S1x16000_S4x16000 : S1x16000.Broadcasts S4x16000
  slices_S4x16000_o0_0_S1x16000 : S4x16000.Slices ![0, 0] S1x16000
  slices_S4x16000_o1_0_S1x16000 : S4x16000.Slices ![1, 0] S1x16000
  slices_S4x16000_o2_0_S1x16000 : S4x16000.Slices ![2, 0] S1x16000
  slices_S4x16000_o3_0_S1x16000 : S4x16000.Slices ![3, 0] S1x16000
  slices_S3x16000_o0_0_S1x16000 : S3x16000.Slices ![0, 0] S1x16000
  slices_S3x16000_o1_0_S1x16000 : S3x16000.Slices ![1, 0] S1x16000
  slices_S3x16000_o2_0_S1x16000 : S3x16000.Slices ![2, 0] S1x16000
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16000 : S64x1.Broadcasts S64x16000
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16000 : S32x1.Broadcasts S32x16000
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16000 : S3x1.Broadcasts S3x16000
  concatenates_S3x16000_S3x16000_S4x16000_S1x16000_S3x16000_S1x16000_S1x16000_S1x16000_S1x16000_S1x16000_S1x16000_S1x16000_S1x16000_S1x16000_S23x16000_d0 : Shape.Concatenates [S3x16000, S3x16000, S4x16000, S1x16000, S3x16000, S1x16000, S1x16000, S1x16000, S1x16000, S1x16000, S1x16000, S1x16000, S1x16000, S1x16000] S23x16000 0
  inb_S23x16000_S23x16000_0_0 : ∀ a, (![0, 0] : Fin 2 → Nat) a + S23x16000.size a ≤ S23x16000.size a
  h_S23x16000 : 0 < S23x16000.numel
  transposes_S23x2000000_S2000000x23_1_0 : S23x2000000.Transposes [1, 0] S2000000x23
  dot_S64x32_S32x16000_S64x16000_1_0_0_1_n_n_wf : DotDims.WF S64x32 S32x16000 S64x16000 [1] [0] [0] [1] [] []
  dot_S32x64_S64x16000_S32x16000_1_0_0_1_n_n_wf : DotDims.WF S32x64 S64x16000 S32x16000 [1] [0] [0] [1] [] []
  dot_S3x32_S32x16000_S3x16000_1_0_0_1_n_n_wf : DotDims.WF S3x32 S32x16000 S3x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x3.size a ≤ S2000000x3.size a
  hwx0_0 : ∀ i : grid0.Coords, EltTy.bits .f32 = 32 ∨ (Rect.block (s := S2000000x3) S16000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x3.size a ≤ S2000000x3.size a
  hwx0_1 : ∀ i : grid0.Coords, EltTy.bits .f32 = 32 ∨ (Rect.block (s := S2000000x3) S16000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x4.size a ≤ S2000000x4.size a
  hwx0_2 : ∀ i : grid0.Coords, EltTy.bits .f32 = 32 ∨ (Rect.block (s := S2000000x4) S16000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x1.size a ≤ S2000000x1.size a
  hwx0_3 : ∀ i : grid0.Coords, EltTy.bits .f32 = 32 ∨ (Rect.block (s := S2000000x1) S16000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x32.size a ≤ S2000000x32.size a
  hwx0_4 : ∀ i : grid0.Coords, EltTy.bits .f32 = 32 ∨ (Rect.block (s := S2000000x32) S16000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x32.size a ≤ S3x32.size a
  hwx0_9 : ∀ i : grid0.Coords, EltTy.bits .f32 = 32 ∨ (Rect.block (s := S3x32) S3x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x1.size a ≤ S3x1.size a
  hwx0_10 : ∀ i : grid0.Coords, EltTy.bits .f32 = 32 ∨ (Rect.block (s := S3x1) S3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S23x16000.size a ≤ S23x2000000.size a
  hwx0_11 : ∀ i : grid0.Coords, EltTy.bits .f32 = 32 ∨ (Rect.block (s := S23x2000000) S23x16000.size (cc0_transform_11 i) (hinb0_11 i)).WholeWords (EltTy.packing .f32)

variable [Facts₀]

def dot_S64x32_S32x16000_S64x16000_1_0_0_1_n_n : DotDims S64x32 S32x16000 S64x16000 where
  lhsContracting := [1]
  rhsContracting := [0]
  lhsNonContracting := [0]
  rhsNonContracting := [1]
  lhsBatch := []
  rhsBatch := []
  wf := dot_S64x32_S32x16000_S64x16000_1_0_0_1_n_n_wf
def dot_S32x64_S64x16000_S32x16000_1_0_0_1_n_n : DotDims S32x64 S64x16000 S32x16000 where
  lhsContracting := [1]
  rhsContracting := [0]
  lhsNonContracting := [0]
  rhsNonContracting := [1]
  lhsBatch := []
  rhsBatch := []
  wf := dot_S32x64_S64x16000_S32x16000_1_0_0_1_n_n_wf
def dot_S3x32_S32x16000_S3x16000_1_0_0_1_n_n : DotDims S3x32 S32x16000 S3x16000 where
  lhsContracting := [1]
  rhsContracting := [0]
  lhsNonContracting := [0]
  rhsNonContracting := [1]
  lhsBatch := []
  rhsBatch := []
  wf := dot_S3x32_S32x16000_S3x16000_1_0_0_1_n_n_wf

abbrev win0_0 : Pipeline.Window sig grid0 :=
  Pipeline.Window.ofSpec (Memref.whole main_arg0) S16000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S3x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S3x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S23x16000.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x4 : Shape := ⟨2, ![2000000, 4]⟩
abbrev S2000000x1 : Shape := ⟨2, ![2000000, 1]⟩
abbrev S2000000x32 : Shape := ⟨2, ![2000000, 32]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩
abbrev S2000000 : Shape := ⟨1, ![2000000]⟩
abbrev S2000000x1x3 : Shape := ⟨3, ![2000000, 1, 3]⟩
abbrev S2000000x3x3 : Shape := ⟨3, ![2000000, 3, 3]⟩
abbrev S2000000x64 : Shape := ⟨2, ![2000000, 64]⟩
abbrev S1x64 : Shape := ⟨2, ![1, 64]⟩
abbrev S1x32 : Shape := ⟨2, ![1, 32]⟩
abbrev S1x3 : Shape := ⟨2, ![1, 3]⟩
abbrev S2000000x9 : Shape := ⟨2, ![2000000, 9]⟩
abbrev S2000000x23 : Shape := ⟨2, ![2000000, 23]⟩

abbrev nBuf : Space → Nat
  | .hbm => 146
  | .vmem => 0
  | .smem => 0
  | _ => 0

abbrev hbmTy0_0 (i : Nat) : BufTy := match i % 128 with
  | 0 => ⟨S2000000x3, .f32⟩
  | 1 => ⟨S2000000x3, .f32⟩
  | 2 => ⟨S2000000x4, .f32⟩
  | 3 => ⟨S2000000x1, .f32⟩
  | 4 => ⟨S2000000x32, .f32⟩
  | 5 => ⟨S32x64, .f32⟩
  | 6 => ⟨S64, .f32⟩
  | 7 => ⟨S64x32, .f32⟩
  | 8 => ⟨S32, .f32⟩
  | 9 => ⟨S32x3, .f32⟩
  | 10 => ⟨S3, .f32⟩
  | 11 => ⟨S2000000x3, .f32⟩
  | 12 => ⟨S2000000x4, .f32⟩
  | 13 => ⟨S_, .f32⟩
  | 14 => ⟨S2000000, .f32⟩
  | 15 => ⟨S2000000x1, .f32⟩
  | 16 => ⟨S2000000x1, .f32⟩
  | 17 => ⟨S2000000x4, .f32⟩
  | 18 => ⟨S2000000x4, .f32⟩
  | 19 => ⟨S2000000x1, .f32⟩
  | 20 => ⟨S2000000, .f32⟩
  | 21 => ⟨S2000000x1, .f32⟩
  | 22 => ⟨S2000000, .f32⟩
  | 23 => ⟨S2000000x1, .f32⟩
  | 24 => ⟨S2000000, .f32⟩
  | 25 => ⟨S2000000x1, .f32⟩
  | 26 => ⟨S2000000, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S2000000, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S2000000, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S2000000, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S2000000, .f32⟩
  | 70 => ⟨S2000000, .f32⟩
  | 71 => ⟨S2000000, .f32⟩
  | 72 => ⟨S_, .f32⟩
  | 73 => ⟨S2000000, .f32⟩
  | 74 => ⟨S2000000, .f32⟩
  | 75 => ⟨S2000000, .f32⟩
  | 76 => ⟨S2000000, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S2000000, .f32⟩
  | 83 => ⟨S2000000, .f32⟩
  | 84 => ⟨S_, .f32⟩
  | 85 => ⟨S2000000, .f32⟩
  | 86 => ⟨S2000000, .f32⟩
  | 87 => ⟨S_, .f32⟩
  | 88 => ⟨S2000000, .f32⟩
  | 89 => ⟨S2000000, .f32⟩
  | 90 => ⟨S2000000x1, .f32⟩
  | 91 => ⟨S2000000x1, .f32⟩
  | 92 => ⟨S2000000x1, .f32⟩
  | 93 => ⟨S2000000x3, .f32⟩
  | 94 => ⟨S2000000x1, .f32⟩
  | 95 => ⟨S2000000x1, .f32⟩
  | 96 => ⟨S2000000x1, .f32⟩
  | 97 => ⟨S2000000x3, .f32⟩
  | 98 => ⟨S2000000x1, .f32⟩
  | 99 => ⟨S2000000x1, .f32⟩
  | 100 => ⟨S2000000x1, .f32⟩
  | 101 => ⟨S2000000x3, .f32⟩
  | 102 => ⟨S2000000x1x3, .f32⟩
  | 103 => ⟨S2000000x1x3, .f32⟩
  | 104 => ⟨S2000000x1x3, .f32⟩
  | 105 => ⟨S2000000x3x3, .f32⟩
  | 106 => ⟨S2000000x1x3, .f32⟩
  | 107 => ⟨S2000000x3x3, .f32⟩
  | 108 => ⟨S2000000x3x3, .f32⟩
  | 109 => ⟨S2000000x3x3, .f32⟩
  | 110 => ⟨S2000000x1, .f32⟩
  | 111 => ⟨S2000000x1, .f32⟩
  | 112 => ⟨S_, .f32⟩
  | 113 => ⟨S2000000x1, .f32⟩
  | 114 => ⟨S2000000x1, .f32⟩
  | 115 => ⟨S_, .f32⟩
  | 116 => ⟨S2000000x1, .f32⟩
  | 117 => ⟨S2000000x1, .f32⟩
  | 118 => ⟨S2000000x64, .f32⟩
  | 119 => ⟨S1x64, .f32⟩
  | 120 => ⟨S2000000x64, .f32⟩
  | 121 => ⟨S2000000x64, .f32⟩
  | 122 => ⟨S_, .f32⟩
  | 123 => ⟨S2000000x64, .f32⟩
  | 124 => ⟨S2000000x64, .f32⟩
  | 125 => ⟨S2000000x32, .f32⟩
  | 126 => ⟨S1x32, .f32⟩
  | 127 => ⟨S2000000x32, .f32⟩
  | _ => ⟨S2000000x3, .f32⟩

abbrev hbmTy0_1 (i : Nat) : BufTy := match i % 128 with
  | 0 => ⟨S2000000x32, .f32⟩
  | 1 => ⟨S_, .f32⟩
  | 2 => ⟨S2000000x32, .f32⟩
  | 3 => ⟨S2000000x32, .f32⟩
  | 4 => ⟨S2000000x3, .f32⟩
  | 5 => ⟨S1x3, .f32⟩
  | 6 => ⟨S2000000x3, .f32⟩
  | 7 => ⟨S2000000x3, .f32⟩
  | 8 => ⟨S2000000x3, .f32⟩
  | 9 => ⟨S2000000x3, .f32⟩
  | 10 => ⟨S_, .f32⟩
  | 11 => ⟨S2000000x3, .f32⟩
  | 12 => ⟨S2000000x3, .f32⟩
  | 13 => ⟨S_, .f32⟩
  | 14 => ⟨S2000000x3, .f32⟩
  | 15 => ⟨S2000000x3, .f32⟩
  | 16 => ⟨S2000000x9, .f32⟩
  | 17 => ⟨S2000000x23, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_11 : Ref sig .tc := ⟨.hbm, 112, rfl⟩
abbrev main_v85 : Ref sig .tc := ⟨.hbm, 113, rfl⟩
abbrev main_v86 : Ref sig .tc := ⟨.hbm, 114, rfl⟩
abbrev main_cst_12 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call2_cst : Ref sig .tc := ⟨.hbm, 129, rfl⟩
abbrev main_call2_v0 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_13 : Ref sig .tc := ⟨.hbm, 138, rfl⟩
abbrev main_v105 : Ref sig .tc := ⟨.hbm, 139, rfl⟩
abbrev main_v106 : Ref sig .tc := ⟨.hbm, 140, rfl⟩
abbrev main_cst_14 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]

class Facts₀ : Prop where
  reducesTo_S2000000x4_S2000000_d1 : S2000000x4.ReducesTo [1] S2000000
  h_S_ : 0 < S_.numel
  bcast_S2000000_S2000000x1_0 : S2000000.BroadcastsInDim S2000000x1 (![0] : Fin 1 → Fin S2000000x1.rank)
  bcast_S2000000x1_S2000000x4_0_1 : S2000000x1.BroadcastsInDim S2000000x4 (![0, 1] : Fin 2 → Fin S2000000x4.rank)
  slices_S2000000x4_S2000000x1_0_0 : S2000000x4.Slices ![0, 0] S2000000x1
  shapeCasts_S2000000x1_S2000000 : S2000000x1.ShapeCasts S2000000
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  bcast_S_S2000000 : S_.BroadcastsInDim S2000000 (![] : Fin 0 → Fin S2000000.rank)
  concatenates_S2000000x1_S2000000x1_S2000000x1_S2000000x3_d1 : Shape.Concatenates [S2000000x1, S2000000x1, S2000000x1] S2000000x3 1
  bcast_S2000000x3_S2000000x1x3_0_2 : S2000000x3.BroadcastsInDim S2000000x1x3 (![0, 2] : Fin 2 → Fin S2000000x1x3.rank)
  concatenates_S2000000x1x3_S2000000x1x3_S2000000x1x3_S2000000x3x3_d1 : Shape.Concatenates [S2000000x1x3, S2000000x1x3, S2000000x1x3] S2000000x3x3 1
  bcast_S2000000x1x3_S2000000x3x3_0_1_2 : S2000000x1x3.BroadcastsInDim S2000000x3x3 (![0, 1, 2] : Fin 3 → Fin S2000000x3x3.rank)
  bcast_S_S2000000x1 : S_.BroadcastsInDim S2000000x1 (![] : Fin 0 → Fin S2000000x1.rank)
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x3 : S_.BroadcastsInDim S2000000x3 (![] : Fin 0 → Fin S2000000x3.rank)
  shapeCasts_S2000000x3x3_S2000000x9 : S2000000x3x3.ShapeCasts S2000000x9
  concatenates_S2000000x3_S2000000x3_S2000000x4_S2000000x1_S2000000x3_S2000000x9_S2000000x23_d1 : Shape.Concatenates [S2000000x3, S2000000x3, S2000000x4, S2000000x1, S2000000x3, S2000000x9] S2000000x23 1
  dot_S2000000x3x3_S2000000x3x3_S2000000x3x3_2_2_1_1_0_0_wf : DotDims.WF S2000000x3x3 S2000000x3x3 S2000000x3x3 [2] [2] [1] [1] [0] [0]
  dot_S2000000x32_S32x64_S2000000x64_1_0_0_1_n_n_wf : DotDims.WF S2000000x32 S32x64 S2000000x64 [1] [0] [0] [1] [] []
  dot_S2000000x64_S64x32_S2000000x32_1_0_0_1_n_n_wf : DotDims.WF S2000000x64 S64x32 S2000000x32 [1] [0] [0] [1] [] []
  dot_S2000000x32_S32x3_S2000000x3_1_0_0_1_n_n_wf : DotDims.WF S2000000x32 S32x3 S2000000x3 [1] [0] [0] [1] [] []

variable [Facts₀]

def dot_S2000000x3x3_S2000000x3x3_S2000000x3x3_2_2_1_1_0_0 : DotDims S2000000x3x3 S2000000x3x3 S2000000x3x3 where
  lhsContracting := [2]
  rhsContracting := [2]
  lhsNonContracting := [1]
  rhsNonContracting := [1]
  lhsBatch := [0]
  rhsBatch := [0]
  wf := dot_S2000000x3x3_S2000000x3x3_S2000000x3x3_2_2_1_1_0_0_wf
def dot_S2000000x32_S32x64_S2000000x64_1_0_0_1_n_n : DotDims S2000000x32 S32x64 S2000000x64 where
  lhsContracting := [1]
  rhsContracting := [0]
  lhsNonContracting := [0]
  rhsNonContracting := [1]
  lhsBatch := []
  rhsBatch := []
  wf := dot_S2000000x32_S32x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def dot_S2000000x32_S32x3_S2000000x3_1_0_0_1_n_n : DotDims S2000000x32 S32x3 S2000000x3 where
  lhsContracting := [1]
  rhsContracting := [0]
  lhsNonContracting := [0]
  rhsNonContracting := [1]
  lhsBatch := []
  rhsBatch := []
  wf := dot_S2000000x32_S32x3_S2000000x3_1_0_0_1_n_n_wf

class Facts : Prop extends Facts₀ where

variable [Facts]
-- ==== Proof.Spec.lean ====
/-
  The mathematics of one Gaussian, as functions on the extended reals.

  A Gaussian has a position `p ∈ ℝ³`, log-scales `s ∈ ℝ³`, a quaternion `a ∈ ℝ⁴`, an opacity logit `o` and a
  feature vector `f ∈ ℝ³²`; the model has three affine layers `(w1, b1)`, `(w2, b2)`, `(w3, b3)`. Its 23 outputs are
    0–2   the position,
    3–5   the scales `e = exp s`,
    6–9   the unit quaternion `q = a · (Σ aₖ²)^(-1/2)`,
    10    the opacity `σ(o)`, `σ x = 1 / (1 + e⁻ˣ)`,
    11–13 the colour `σ(W3ᵀ relu(W2ᵀ relu(W1ᵀ f + b1) + b2) + b3)`,
    14–22 the covariance `C = (R diag e)(R diag e)ᵀ`, `C i k = Σⱼ R i j · R k j · eⱼ²`, row-major, `R` the rotation matrix of `q`.
  The covariance is symmetric, and the entries below the diagonal are written as their mirror images.

  Everything is stated in one arrangement of the products and sums; the laws at the end relate the other arrangement
  (a quotient by the length instead of a product with its inverse square root; `(R i j · eⱼ) · (R k j · eⱼ)` summed over `j`;
  the factors of a dot product in the other order). Only the first needs a hypothesis: the squared length is positive.
  At squared length `0` the quotient `0 / 0` and the product `0 · ∞` have different conventional values.
-/
import Idealize.ShloMosaic.PureOps.Ideal
import Idealize.ShloMosaic.PureOps.Ideal.Laws
import Idealize.ShloMosaic.Lib.IdealHost
import Idealize.ShloMosaic.Lib.ValueIdx

noncomputable section

namespace Cert.Splat

open Idealize.ShloMosaic Idealize.ShloMosaic.ValueIdx

/-- The words of `0.0`, `1.0` and `2.0`, kept as words: both programs carry the same ones. -/
abbrev c0 : EReal := Ideal.ofBits .f32 0x00000000#32
abbrev c1 : EReal := Ideal.ofBits .f32 0x3F800000#32
abbrev c2 : EReal := Ideal.ofBits .f32 0x40000000#32

/-- The squared length of a quaternion. -/
def nsq (a : Fin 4 → EReal) : EReal := ∑ k : Fin 4, a k * a k

/-- The quaternion scaled to unit length: each component times the inverse square root of the squared length. -/
def unit (a : Fin 4 → EReal) (k : Fin 4) : EReal := a k * Ideal.rsqrt (nsq a)

/-- The rotation matrix of a quaternion `(w, x, y, z) = (q 0, q 1, q 2, q 3)`. -/
def rotm (q : Fin 4 → EReal) : Fin 3 → Fin 3 → EReal :=
  ![![c1 - c2 * (q 2 * q 2 + q 3 * q 3), c2 * (q 1 * q 2 - q 0 * q 3), c2 * (q 1 * q 3 + q 0 * q 2)],
    ![c2 * (q 1 * q 2 + q 0 * q 3), c1 - c2 * (q 1 * q 1 + q 3 * q 3), c2 * (q 2 * q 3 - q 0 * q 1)],
    ![c2 * (q 1 * q 3 - q 0 * q 2), c2 * (q 2 * q 3 + q 0 * q 1), c1 - c2 * (q 1 * q 1 + q 2 * q 2)]]

/-- Entry `(i, k)` of `(R diag e)(R diag e)ᵀ`: the sum over `j` of `R i j · R k j · eⱼ²`, written out. -/
def cov (R : Fin 3 → Fin 3 → EReal) (e : Fin 3 → EReal) (i k : Fin 3) : EReal :=
  R i 0 * R k 0 * (e 0 * e 0) + R i 1 * R k 1 * (e 1 * e 1) + R i 2 * R k 2 * (e 2 * e 2)

/-- One affine layer, output `j`: `Σₖ w k j · x k + b j`. -/
def layer {n m : Nat} (w : Fin n → Fin m → EReal) (b : Fin m → EReal) (x : Fin n → EReal) (j : Fin m) : EReal :=
  (∑ k : Fin n, w k j * x k) + b j

def relu (x : EReal) : EReal := max x c0

/-- The colour: three layers, `relu` after the first two, the sigmoid after the third. -/
def colour (f : Fin 32 → EReal) (w1 : Fin 32 → Fin 64 → EReal) (b1 : Fin 64 → EReal) (w2 : Fin 64 → Fin 32 → EReal)
    (b2 : Fin 32 → EReal) (w3 : Fin 32 → Fin 3 → EReal) (b3 : Fin 3 → EReal) (j : Fin 3) : EReal :=
  Ideal.logistic (layer w3 b3 (fun k => relu (layer w2 b2 (fun k' => relu (layer w1 b1 f k')) k)) j)

/-- The 23 outputs of one Gaussian. -/
def row (p s : Fin 3 → EReal) (a : Fin 4 → EReal) (o : EReal) (f : Fin 32 → EReal) (w1 : Fin 32 → Fin 64 → EReal)
    (b1 : Fin 64 → EReal) (w2 : Fin 64 → Fin 32 → EReal) (b2 : Fin 32 → EReal) (w3 : Fin 32 → Fin 3 → EReal)
    (b3 : Fin 3 → EReal) : Fin 23 → EReal :=
  ![p 0, p 1, p 2,
    Ideal.exp (s 0), Ideal.exp (s 1), Ideal.exp (s 2),
    unit a 0, unit a 1, unit a 2, unit a 3,
    Ideal.logistic o,
    colour f w1 b1 w2 b2 w3 b3 0, colour f w1 b1 w2 b2 w3 b3 1, colour f w1 b1 w2 b2 w3 b3 2,
    cov (rotm (unit a)) (fun k => Ideal.exp (s k)) 0 0, cov (rotm (unit a)) (fun k => Ideal.exp (s k)) 0 1,
    cov (rotm (unit a)) (fun k => Ideal.exp (s k)) 0 2, cov (rotm (unit a)) (fun k => Ideal.exp (s k)) 0 1,
    cov (rotm (unit a)) (fun k => Ideal.exp (s k)) 1 1, cov (rotm (unit a)) (fun k => Ideal.exp (s k)) 1 2,
    cov (rotm (unit a)) (fun k => Ideal.exp (s k)) 0 2, cov (rotm (unit a)) (fun k => Ideal.exp (s k)) 1 2,
    cov (rotm (unit a)) (fun k => Ideal.exp (s k)) 2 2]

/-- An array of two axes, and of one, over the extended reals. -/
abbrev A2 (a b : Nat) : Type := (⟨2, ![a, b]⟩ : Shape).Idx → EReal
abbrev A1 (a : Nat) : Type := (⟨1, ![a]⟩ : Shape).Idx → EReal

/-- Gaussian `n`'s outputs from the whole arrays: row `n` of each per-Gaussian array, and the weights. -/
def rowOf (pos scl : A2 2000000 3) (rot : A2 2000000 4) (op : A2 2000000 1) (feat : A2 2000000 32) (w1 : A2 32 64) (b1 : A1 64)
    (w2 : A2 64 32) (b2 : A1 32) (w3 : A2 32 3) (b3 : A1 3) (n : Fin 2000000) : Fin 23 → EReal :=
  row (fun k => pos (ix2 n k)) (fun k => scl (ix2 n k)) (fun k => rot (ix2 n k)) (op (ix2 n 0)) (fun k => feat (ix2 n k))
    (fun k j => w1 (ix2 k j)) (fun j => b1 (ix1 j)) (fun k j => w2 (ix2 k j)) (fun j => b2 (ix1 j)) (fun k j => w3 (ix2 k j))
    (fun j => b3 (ix1 j))

/-- The result array, one row of 23 per Gaussian. -/
def G (pos scl : A2 2000000 3) (rot : A2 2000000 4) (op : A2 2000000 1) (feat : A2 2000000 32) (w1 : A2 32 64) (b1 : A1 64)
    (w2 : A2 64 32) (b2 : A1 32) (w3 : A2 32 3) (b3 : A1 3) : A2 2000000 23 :=
  fun i => rowOf pos scl rot op feat w1 b1 w2 b2 w3 b3 (i 0) (i 1)

/-- The same numbers with the Gaussians along the second axis: one column of 23 per Gaussian. -/
def GT (pos scl : A2 2000000 3) (rot : A2 2000000 4) (op : A2 2000000 1) (feat : A2 2000000 32) (w1 : A2 32 64) (b1 : A1 64)
    (w2 : A2 64 32) (b2 : A1 32) (w3 : A2 32 3) (b3 : A1 3) : A2 23 2000000 :=
  fun i => rowOf pos scl rot op feat w1 b1 w2 b2 w3 b3 (i 1) (i 0)

/-- Every quaternion has positive squared length. -/
def PosLen (rot : A2 2000000 4) : Prop := ∀ n : Fin 2000000, 0 < nsq fun k => rot (ix2 n k)

/-! ## The laws between the two arrangements -/

/-- A component divided by the length is the component times the inverse square root of the squared length,
    when the squared length is positive (finite or not). -/
theorem div_sqrt_eq_mul_rsqrt (x n : EReal) (h : 0 < n) : Ideal.div x (Ideal.sqrt n) = x * Ideal.rsqrt n := by
  induction n using EReal.rec with
  | bot => exact absurd h (by simp)
  | top =>
    rw [Ideal.sqrt_top, Ideal.rsqrt_top]
    simp [Ideal.div]
  | coe r =>
    have hr : 0 < r := by exact_mod_cast h
    have hs : Real.sqrt r ≠ 0 := (Real.sqrt_pos.2 hr).ne'
    rw [Ideal.sqrt_coe, Ideal.rsqrt_coe, if_neg (not_lt.2 hr.le), if_neg (not_lt.2 hr.le), if_neg hr.ne',
      Ideal.div_coe hs, one_div]

/-- The quotient form of the unit quaternion, with the sum started from the zero word. -/
theorem unit_eq_div (a : Fin 4 → EReal) (h : 0 < nsq a) (k : Fin 4) :
    Ideal.div (a k) (Ideal.sqrt (c0 + nsq a)) = unit a k := by
  have hz : c0 + nsq a = nsq a := by rw [show c0 = 0 from Ideal.ofBits_zero_f32, zero_add]
  rw [hz]; exact div_sqrt_eq_mul_rsqrt _ _ h

/-- `Σⱼ (R i j · eⱼ) · (R k j · eⱼ)` is the written-out `Σⱼ R i j · R k j · eⱼ²`. -/
theorem sum_eq_cov (R : Fin 3 → Fin 3 → EReal) (e : Fin 3 → EReal) (i k : Fin 3) :
    ∑ j : Fin 3, (R i j * e j) * (R k j * e j) = cov R e i k := by
  rw [Fin.sum_univ_three]; unfold cov
  rw [mul_mul_mul_comm (R i 0), mul_mul_mul_comm (R i 1), mul_mul_mul_comm (R i 2)]

/-- The covariance is symmetric. -/
theorem cov_symm (R : Fin 3 → Fin 3 → EReal) (e : Fin 3 → EReal) (i k : Fin 3) : cov R e i k = cov R e k i := by
  unfold cov; rw [mul_comm (R i 0), mul_comm (R i 1), mul_comm (R i 2)]

/-- The sigmoid written with the word of `1.0`. -/
theorem div_one_eq_logistic (x : EReal) : Ideal.div c1 (c1 + Ideal.exp (-x)) = Ideal.logistic x := by
  rw [show c1 = 1 from Ideal.ofBits_one_f32]; rfl

/-- A layer with the factors of each product in the other order. -/
theorem sum_comm_eq_layer {n m : Nat} (w : Fin n → Fin m → EReal) (b : Fin m → EReal) (x : Fin n → EReal) (j : Fin m) :
    (∑ k : Fin n, x k * w k j) + b j = layer w b x j := by
  unfold layer; exact congrArg (· + b j) (Finset.sum_congr rfl fun k _ => mul_comm _ _)

end Cert.Splat

end
-- ==== Proof.PreDecode.lean ====
/-
  What the precondition says of the quaternions.

  The precondition is a conjunction; its last conjunct says that, for every Gaussian, the sum of the squares of the four
  quaternion components (started from zero) is greater than zero. Read at the extended reals this is `PosLen`: every
  quaternion has positive squared length. None of the other conjuncts is needed.
-/
import proofs.«165548_j52338471469394_2_alg».proof.Pre_finite_inputs
import proofs.«165548_j52338471469394_2_alg».proof.Proof.Spec
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Splat.Pre

open Idealize.ShloMosaic Idealize.ShloMosaic.ValueIdx Cert.Pre_finite_inputs Cert.Splat

variable [Cert.Pre_finite_inputs.Facts]
open Cert.Pre_finite_inputs.Facts

instance : Subsingleton S_.Idx := ⟨fun a b => funext fun d => d.elim0⟩

/-- The sum the precondition compares with zero, at Gaussian `n`, is the squared length of quaternion `n`. -/
theorem sum_eq_nsq (a : FVec Ideal S2000000x4 .f32) (n : Fin 2000000) :
    Host.reduceAdd (mulf a a) (constant (F := Ideal) S_ .f32 0x00000000#32) reducesTo_S2000000x4_S2000000_d1 h_S_ (ix1 n)
      = nsq fun k => a (ix2 n k) := by
  simp only [Host.reduceAdd, Ideal.hostReduceAdd_def]
  rw [Ideal.hostReduceAdd_single reducesTo_S2000000x4_S2000000_d1 (by decide)]
  show Ideal.ofBits .f32 0x00000000#32 + _ = _
  rw [Ideal.ofBits_zero_f32, zero_add]
  unfold nsq
  refine Finset.sum_congr rfl fun k _ => ?_
  show a _ * a _ = _
  have e : ∀ i : S2000000x4.Idx, (i 0).val = n.val → (i 1).val = k.val → a i = a (ix2 n k) := fun i h0 h1 =>
    congrArg a (funext fun d => Fin.ext (by match d with | ⟨0, _⟩ => exact h0 | ⟨1, _⟩ => exact h1))
  rw [e _ rfl rfl]

/-- The precondition gives every quaternion a positive squared length. -/
theorem posLen_of_pre (a0 a1 : FVec Ideal S2000000x3 .f32) (a2 : FVec Ideal S2000000x4 .f32) (a3 : FVec Ideal S2000000x1 .f32)
    (a4 : FVec Ideal S2000000x32 .f32) (a5 : FVec Ideal S32x64 .f32) (a6 : FVec Ideal S64 .f32) (a7 : FVec Ideal S64x32 .f32)
    (a8 : FVec Ideal S32 .f32) (a9 : FVec Ideal S32x3 .f32) (a10 : FVec Ideal S3 .f32)
    (h : fn (F := Ideal) a0 a1 a2 a3 a4 a5 a6 a7 a8 a9 a10 = fun _ => 1#1) : PosLen a2 := by
  intro n
  have h0 := congrFun h ix0
  dsimp only [fn, fn_part1, fn_part2, fn_part3] at h0
  have h1 := (IntOp.andi_eq_one.1 h0).2
  have h2 := Host.reduce_andi_all _ _ _ _ _ h1 (ix1 n)
  rw [cmpf_apply, Ideal.cmpf_def, broadcastInDim_apply _ _ _ _ ix0 (fun a => a.elim0), constant_apply,
    Ideal.ofBits_zero_f32, sum_eq_nsq] at h2
  have h4 : BitVec.ofBool (decide (0 < nsq fun k => a2 (ix2 n k))) = 1#1 := by simpa [Ideal.cmp] using h2
  by_contra hn
  rw [decide_eq_false hn] at h4
  exact absurd h4 (by decide)

end Cert.Splat.Pre

end
-- ==== Proof.KernelRow.lean ====
/-
  The kernel body's stored block, read at an index, is the specification's row.

  The body loads one block of 16000 Gaussians (positions, log-scales, quaternions, opacity logits, features) and the
  three layers' weights (the weight matrices transposed, the biases as columns), turns every per-Gaussian block so that
  the Gaussians run along the second axis, and stores a 23 × 16000 block: column `j` holds the 23 outputs of Gaussian
  `j` of the block. Here each piece of that stored value is read at `(r, j)`:
    • a transposed block at `(r, j)` is the block at `(j, r)`;
    • the sum of the squared quaternion components down a column is `nsq`, its inverse square root spread over the four
      rows times the components is `unit`;
    • the nine products the body forms from the rows of the unit quaternion are the entries of `rotm`, and the six sums
      of three products it forms from them and from the squared scales are the entries of `cov`;
    • a matrix product into the zero accumulator plus a bias column spread over the lanes is `layer`;
    • the 14 pieces joined along the first axis are the 23 rows, the mirrored covariance entries stored twice.
  No algebra is used: the body's arrangement of the products and sums is the specification's.
-/
import proofs.«165548_j52338471469394_2_alg».proof.Proof.Gen.KernelIdeal.Skeleton
import proofs.«165548_j52338471469394_2_alg».proof.Proof.Spec
import Idealize.ShloMosaic.Lib.ValueLayout
import Idealize.ShloMosaic.PureOps.Ideal.Laws

noncomputable section

namespace Cert.Splat.Kernel

open Cert.KernelIdeal Cert.KernelIdeal.Gen Cert.Splat Idealize.ShloMosaic Idealize.ShloMosaic.ValueIdx

/-! ## A column spread over the lanes, a one-row array, and a join of row blocks, read at an index -/

/-- A column `[a, 1]` spread over `b` lanes reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one row of a `[1, b]` array, whatever the name of its row coordinate. -/
theorem row_one {α : Type} {b : ℕ} (v : (⟨2, ![1, b]⟩ : Shape).Idx → α) (u : Fin 1) (c : Fin b) :
    v (ix2 u c) = v (ix2 (0 : Fin 1) c) := by
  obtain rfl : u = 0 := Subsingleton.elim _ _
  rfl

/-- A join of pieces `[n, 16000]` along the first axis into 23 rows reads, at row `r = pre + m` with `pre` the rows of the
    pieces before piece `k`, piece `k` at row `m`. -/
theorem join_rows {α : Type} (xs : List ((s : Shape) × (s.Idx → α))) (h : Shape.Concatenates (xs.map (·.1)) S23x16000 0)
    (r : Fin 23) (j : Fin 16000) (k : Nat) (hk : k < xs.length) (n : Nat) (x₁ : (⟨2, ![n, 16000]⟩ : Shape).Idx → α)
    (hxk : xs[k] = ⟨⟨2, ![n, 16000]⟩, x₁⟩) (ss : List Shape) (hss : xs.map (·.1) = ss) (pre : Nat)
    (hpre : ((ss.take k).map fun s =>
      if h : s.rank = S23x16000.rank then s.size ((0 : Fin S23x16000.rank).cast h.symm) else 0).sum = pre)
    (m : Fin n) (ha : pre + m.val = r.val) :
    concatenate S23x16000 0 xs h (ix2 r j) = x₁ (ix2 m j) :=
  concatenate_apply_piece 0 xs h (ix2 r j) k hk _ x₁ hxk rfl pre (by rw [List.map_take, hss]; exact hpre) (ix2 m j)
    (fun b hb => match b, hb with
      | ⟨0, _⟩, hb => absurd rfl hb
      | ⟨1, _⟩, _ => rfl) ha

/-! ## The turned blocks -/

theorem pay2_apply (v0 : Vec Ideal S16000x3 .f32) (r : Fin 3) (j : Fin 16000) :
    k0_pay2 v0 (ix2 r j) = v0 (ix2 j r) :=
  transpose_ix2_apply v0 _ r j

theorem pay3_apply (v6 : Vec Ideal S16000x1 .f32) (u : Fin 1) (j : Fin 16000) :
    k0_pay3 v6 (ix2 u j) = v6 (ix2 j 0) := by
  obtain rfl : u = 0 := Subsingleton.elim _ _
  exact transpose_ix2_apply v6 _ 0 j

theorem pay4_apply (v8 : Vec Ideal S16000x32 .f32) (k : Fin 32) (j : Fin 16000) :
    k0_pay4 v8 (ix2 k j) = v8 (ix2 j k) :=
  transpose_ix2_apply v8 _ k j

/-- The scales: the exponential of the turned log-scales. -/
theorem pay5_apply (v2 : Vec Ideal S16000x3 .f32) (r : Fin 3) (j : Fin 16000) :
    k0_pay5 v2 (ix2 r j) = Ideal.exp (v2 (ix2 j r)) :=
  congrArg Ideal.exp (transpose_ix2_apply v2 _ r j)

/-- The opacity: the logistic function of the turned logits. -/
theorem pay30_apply (v6 : Vec Ideal S16000x1 .f32) (u : Fin 1) (j : Fin 16000) :
    k0_pay30 (k0_pay3 v6) (ix2 u j) = Ideal.logistic (v6 (ix2 j 0)) :=
  congrArg Ideal.logistic (pay3_apply v6 u j)

/-! ## The unit quaternion -/

/-- The index the column sum inserts its coordinate into. -/
theorem lift_eq (j : Fin 16000) (k : Fin 4) :
    Shape.Reduces.lift reduces_S4x16000_S16000 (ix1 j) k = ix2 k j := by
  funext a
  match a with
  | ⟨0, _⟩ => rfl
  | ⟨1, _⟩ => rfl

theorem sum_lift (f : S4x16000.Idx → EReal) (j : Fin 16000) :
    (∑ k : Fin (S4x16000.size 0), f (reduces_S4x16000_S16000.lift (ix1 j) k)) = ∑ k : Fin 4, f (ix2 k j) :=
  Finset.sum_congr rfl fun k _ => congrArg f (lift_eq j k)

/-- The sum of the squared components down column `j` is the squared length of quaternion `j`. -/
theorem nsq_apply (v4 : Vec Ideal S16000x4 .f32) (j : Fin 16000) :
    multiReduction (F := Ideal) .add [0] S16000
        (mulf (transpose S4x16000 [1, 0] v4 transposes_S16000x4_p1_0_S4x16000)
          (transpose S4x16000 [1, 0] v4 transposes_S16000x4_p1_0_S4x16000))
        0x00000000#32 reduces_S4x16000_S16000 (.inl rfl) rfl (ix1 j)
      = nsq fun k => v4 (ix2 j k) := by
  refine (Ideal.multiReduction_add_single _ 0x00000000#32 reduces_S4x16000_S16000 (.inl rfl) rfl (ix1 j)).trans ?_
  refine (sum_lift _ j).trans ?_
  unfold nsq
  refine Finset.sum_congr rfl fun k _ => ?_
  rw [mulf_apply, transpose_ix2_apply]

theorem pay6_apply (v4 : Vec Ideal S16000x4 .f32) (k : Fin 4) (j : Fin 16000) :
    k0_pay6 v4 (ix2 k j) = unit (fun k => v4 (ix2 j k)) k := by
  unfold k0_pay6
  rw [mulf_apply, transpose_ix2_apply, broadcastTo_1b_ab_apply]
  show _ * Ideal.rsqrt (shapeCast S1x16000 _ shapeCasts_S16000_S1x16000 (ix2 0 j)) = _
  rw [shapeCast_a_1a_apply, nsq_apply]
  rfl

/-- Its four rows, cut out one by one. -/
theorem pay7_apply (v4 : Vec Ideal S16000x4 .f32) (u : Fin 1) (j : Fin 16000) :
    k0_pay7 v4 (ix2 u j) = unit (fun k => v4 (ix2 j k)) 0 :=
  (slice2_axis0_apply 0 (k0_pay6 v4) slices_S4x16000_o0_0_S1x16000 u j 0 (by have := u.isLt; show 0 = 0 + u.val; omega)).trans (pay6_apply v4 0 j)

theorem pay8_apply (v4 : Vec Ideal S16000x4 .f32) (u : Fin 1) (j : Fin 16000) :
    k0_pay8 v4 (ix2 u j) = unit (fun k => v4 (ix2 j k)) 1 :=
  (slice2_axis0_apply 1 (k0_pay6 v4) slices_S4x16000_o1_0_S1x16000 u j 1 (by have := u.isLt; show 1 = 1 + u.val; omega)).trans (pay6_apply v4 1 j)

theorem pay9_apply (v4 : Vec Ideal S16000x4 .f32) (u : Fin 1) (j : Fin 16000) :
    k0_pay9 v4 (ix2 u j) = unit (fun k => v4 (ix2 j k)) 2 :=
  (slice2_axis0_apply 2 (k0_pay6 v4) slices_S4x16000_o2_0_S1x16000 u j 2 (by have := u.isLt; show 2 = 2 + u.val; omega)).trans (pay6_apply v4 2 j)

theorem pay10_apply (v4 : Vec Ideal S16000x4 .f32) (u : Fin 1) (j : Fin 16000) :
    k0_pay10 v4 (ix2 u j) = unit (fun k => v4 (ix2 j k)) 3 :=
  (slice2_axis0_apply 3 (k0_pay6 v4) slices_S4x16000_o3_0_S1x16000 u j 3 (by have := u.isLt; show 3 = 3 + u.val; omega)).trans (pay6_apply v4 3 j)

/-! ## The rotation matrix

Each entry is a product or sum of rows of the unit quaternion read at one lane, in the specification's order. -/

theorem pay11_apply (v4 : Vec Ideal S16000x4 .f32) (u : Fin 1) (j : Fin 16000) :
    k0_pay11 v4 (ix2 u j) = rotm (unit fun k => v4 (ix2 j k)) 0 0 := by
  show c1 - c2 * (k0_pay9 v4 (ix2 u j) * k0_pay9 v4 (ix2 u j) + k0_pay10 v4 (ix2 u j) * k0_pay10 v4 (ix2 u j)) = _
  rw [pay9_apply, pay10_apply]; rfl

theorem pay12_apply (v4 : Vec Ideal S16000x4 .f32) (u : Fin 1) (j : Fin 16000) :
    k0_pay12 v4 (ix2 u j) = rotm (unit fun k => v4 (ix2 j k)) 0 1 := by
  show c2 * (k0_pay8 v4 (ix2 u j) * k0_pay9 v4 (ix2 u j) - k0_pay7 v4 (ix2 u j) * k0_pay10 v4 (ix2 u j)) = _
  rw [pay7_apply, pay8_apply, pay9_apply, pay10_apply]; rfl

theorem pay13_apply (v4 : Vec Ideal S16000x4 .f32) (u : Fin 1) (j : Fin 16000) :
    k0_pay13 v4 (ix2 u j) = rotm (unit fun k => v4 (ix2 j k)) 0 2 := by
  show c2 * (k0_pay8 v4 (ix2 u j) * k0_pay10 v4 (ix2 u j) + k0_pay7 v4 (ix2 u j) * k0_pay9 v4 (ix2 u j)) = _
  rw [pay7_apply, pay8_apply, pay9_apply, pay10_apply]; rfl

theorem pay14_apply (v4 : Vec Ideal S16000x4 .f32) (u : Fin 1) (j : Fin 16000) :
    k0_pay14 v4 (ix2 u j) = rotm (unit fun k => v4 (ix2 j k)) 1 0 := by
  show c2 * (k0_pay8 v4 (ix2 u j) * k0_pay9 v4 (ix2 u j) + k0_pay7 v4 (ix2 u j) * k0_pay10 v4 (ix2 u j)) = _
  rw [pay7_apply, pay8_apply, pay9_apply, pay10_apply]; rfl

theorem pay15_apply (v4 : Vec Ideal S16000x4 .f32) (u : Fin 1) (j : Fin 16000) :
    k0_pay15 (k0_pay8 v4) (k0_pay10 v4) (ix2 u j) = rotm (unit fun k => v4 (ix2 j k)) 1 1 := by
  show c1 - c2 * (k0_pay8 v4 (ix2 u j) * k0_pay8 v4 (ix2 u j) + k0_pay10 v4 (ix2 u j) * k0_pay10 v4 (ix2 u j)) = _
  rw [pay8_apply, pay10_apply]; rfl

theorem pay16_apply (v4 : Vec Ideal S16000x4 .f32) (u : Fin 1) (j : Fin 16000) :
    k0_pay16 (k0_pay7 v4) (k0_pay8 v4) (k0_pay9 v4) (k0_pay10 v4) (ix2 u j) = rotm (unit fun k => v4 (ix2 j k)) 1 2 := by
  show c2 * (k0_pay9 v4 (ix2 u j) * k0_pay10 v4 (ix2 u j) - k0_pay7 v4 (ix2 u j) * k0_pay8 v4 (ix2 u j)) = _
  rw [pay7_apply, pay8_apply, pay9_apply, pay10_apply]; rfl

theorem pay17_apply (v4 : Vec Ideal S16000x4 .f32) (u : Fin 1) (j : Fin 16000) :
    k0_pay17 (k0_pay7 v4) (k0_pay8 v4) (k0_pay9 v4) (k0_pay10 v4) (ix2 u j) = rotm (unit fun k => v4 (ix2 j k)) 2 0 := by
  show c2 * (k0_pay8 v4 (ix2 u j) * k0_pay10 v4 (ix2 u j) - k0_pay7 v4 (ix2 u j) * k0_pay9 v4 (ix2 u j)) = _
  rw [pay7_apply, pay8_apply, pay9_apply, pay10_apply]; rfl

theorem pay18_apply (v4 : Vec Ideal S16000x4 .f32) (u : Fin 1) (j : Fin 16000) :
    k0_pay18 (k0_pay7 v4) (k0_pay8 v4) (k0_pay9 v4) (k0_pay10 v4) (ix2 u j) = rotm (unit fun k => v4 (ix2 j k)) 2 1 := by
  show c2 * (k0_pay9 v4 (ix2 u j) * k0_pay10 v4 (ix2 u j) + k0_pay7 v4 (ix2 u j) * k0_pay8 v4 (ix2 u j)) = _
  rw [pay7_apply, pay8_apply, pay9_apply, pay10_apply]; rfl

theorem pay19_apply (v4 : Vec Ideal S16000x4 .f32) (u : Fin 1) (j : Fin 16000) :
    k0_pay19 (k0_pay8 v4) (k0_pay9 v4) (ix2 u j) = rotm (unit fun k => v4 (ix2 j k)) 2 2 := by
  show c1 - c2 * (k0_pay8 v4 (ix2 u j) * k0_pay8 v4 (ix2 u j) + k0_pay9 v4 (ix2 u j) * k0_pay9 v4 (ix2 u j)) = _
  rw [pay8_apply, pay9_apply]; rfl

/-! ## The squared scales -/

theorem pay20_apply (v2 : Vec Ideal S16000x3 .f32) (u : Fin 1) (j : Fin 16000) :
    k0_pay20 (k0_pay5 v2) (ix2 u j) = Ideal.exp (v2 (ix2 j 0)) * Ideal.exp (v2 (ix2 j 0)) := by
  have e := (slice2_axis0_apply 0 (k0_pay5 v2) slices_S3x16000_o0_0_S1x16000 u j 0
    (by have := u.isLt; show 0 = 0 + u.val; omega)).trans (pay5_apply v2 0 j)
  exact congrArg₂ (· * ·) e e

theorem pay21_apply (v2 : Vec Ideal S16000x3 .f32) (u : Fin 1) (j : Fin 16000) :
    k0_pay21 (k0_pay5 v2) (ix2 u j) = Ideal.exp (v2 (ix2 j 1)) * Ideal.exp (v2 (ix2 j 1)) := by
  have e := (slice2_axis0_apply 1 (k0_pay5 v2) slices_S3x16000_o1_0_S1x16000 u j 1
    (by have := u.isLt; show 1 = 1 + u.val; omega)).trans (pay5_apply v2 1 j)
  exact congrArg₂ (· * ·) e e

theorem pay22_apply (v2 : Vec Ideal S16000x3 .f32) (u : Fin 1) (j : Fin 16000) :
    k0_pay22 (k0_pay5 v2) (ix2 u j) = Ideal.exp (v2 (ix2 j 2)) * Ideal.exp (v2 (ix2 j 2)) := by
  have e := (slice2_axis0_apply 2 (k0_pay5 v2) slices_S3x16000_o2_0_S1x16000 u j 2
    (by have := u.isLt; show 2 = 2 + u.val; omega)).trans (pay5_apply v2 2 j)
  exact congrArg₂ (· * ·) e e

/-! ## The covariance

Each stored entry is the sum over the three axes of a product of two rotation-matrix entries and a squared scale. -/

theorem cov00_apply (v2 : Vec Ideal S16000x3 .f32) (v4 : Vec Ideal S16000x4 .f32) (u : Fin 1) (j : Fin 16000) :
    k0_pay23 (k0_pay5 v2) (k0_pay11 v4) (k0_pay12 v4) (k0_pay13 v4) (ix2 u j)
      = cov (rotm (unit fun k => v4 (ix2 j k))) (fun k => Ideal.exp (v2 (ix2 j k))) 0 0 := by
  show k0_pay11 v4 (ix2 u j) * k0_pay11 v4 (ix2 u j) * k0_pay20 (k0_pay5 v2) (ix2 u j)
      + k0_pay12 v4 (ix2 u j) * k0_pay12 v4 (ix2 u j) * k0_pay21 (k0_pay5 v2) (ix2 u j)
      + k0_pay13 v4 (ix2 u j) * k0_pay13 v4 (ix2 u j) * k0_pay22 (k0_pay5 v2) (ix2 u j) = _
  rw [pay11_apply, pay12_apply, pay13_apply, pay20_apply, pay21_apply, pay22_apply]; rfl

theorem cov01_apply (v2 : Vec Ideal S16000x3 .f32) (v4 : Vec Ideal S16000x4 .f32) (u : Fin 1) (j : Fin 16000) :
    k0_pay24 (k0_pay5 v2) (k0_pay7 v4) (k0_pay8 v4) (k0_pay9 v4) (k0_pay10 v4) (k0_pay11 v4) (k0_pay12 v4) (k0_pay13 v4)
        (k0_pay14 v4) (ix2 u j)
      = cov (rotm (unit fun k => v4 (ix2 j k))) (fun k => Ideal.exp (v2 (ix2 j k))) 0 1 := by
  show k0_pay11 v4 (ix2 u j) * k0_pay14 v4 (ix2 u j) * k0_pay20 (k0_pay5 v2) (ix2 u j)
      + k0_pay12 v4 (ix2 u j) * k0_pay15 (k0_pay8 v4) (k0_pay10 v4) (ix2 u j) * k0_pay21 (k0_pay5 v2) (ix2 u j)
      + k0_pay13 v4 (ix2 u j) * k0_pay16 (k0_pay7 v4) (k0_pay8 v4) (k0_pay9 v4) (k0_pay10 v4) (ix2 u j)
        * k0_pay22 (k0_pay5 v2) (ix2 u j) = _
  rw [pay11_apply, pay12_apply, pay13_apply, pay14_apply, pay15_apply, pay16_apply, pay20_apply, pay21_apply,
    pay22_apply]; rfl

theorem cov02_apply (v2 : Vec Ideal S16000x3 .f32) (v4 : Vec Ideal S16000x4 .f32) (u : Fin 1) (j : Fin 16000) :
    k0_pay26 (k0_pay12 v4) (k0_pay13 v4) (k0_pay18 (k0_pay7 v4) (k0_pay8 v4) (k0_pay9 v4) (k0_pay10 v4))
        (k0_pay19 (k0_pay8 v4) (k0_pay9 v4)) (k0_pay21 (k0_pay5 v2)) (k0_pay22 (k0_pay5 v2))
        (k0_pay25 (k0_pay5 v2) (k0_pay7 v4) (k0_pay8 v4) (k0_pay9 v4) (k0_pay10 v4) (k0_pay11 v4)) (ix2 u j)
      = cov (rotm (unit fun k => v4 (ix2 j k))) (fun k => Ideal.exp (v2 (ix2 j k))) 0 2 := by
  show k0_pay11 v4 (ix2 u j) * k0_pay17 (k0_pay7 v4) (k0_pay8 v4) (k0_pay9 v4) (k0_pay10 v4) (ix2 u j)
        * k0_pay20 (k0_pay5 v2) (ix2 u j)
      + k0_pay12 v4 (ix2 u j) * k0_pay18 (k0_pay7 v4) (k0_pay8 v4) (k0_pay9 v4) (k0_pay10 v4) (ix2 u j)
        * k0_pay21 (k0_pay5 v2) (ix2 u j)
      + k0_pay13 v4 (ix2 u j) * k0_pay19 (k0_pay8 v4) (k0_pay9 v4) (ix2 u j) * k0_pay22 (k0_pay5 v2) (ix2 u j) = _
  rw [pay11_apply, pay12_apply, pay13_apply, pay17_apply, pay18_apply, pay19_apply, pay20_apply, pay21_apply,
    pay22_apply]; rfl

theorem cov11_apply (v2 : Vec Ideal S16000x3 .f32) (v4 : Vec Ideal S16000x4 .f32) (u : Fin 1) (j : Fin 16000) :
    k0_pay27 (k0_pay14 v4) (k0_pay15 (k0_pay8 v4) (k0_pay10 v4)) (k0_pay16 (k0_pay7 v4) (k0_pay8 v4) (k0_pay9 v4) (k0_pay10 v4))
        (k0_pay20 (k0_pay5 v2)) (k0_pay21 (k0_pay5 v2)) (k0_pay22 (k0_pay5 v2)) (ix2 u j)
      = cov (rotm (unit fun k => v4 (ix2 j k))) (fun k => Ideal.exp (v2 (ix2 j k))) 1 1 := by
  show k0_pay14 v4 (ix2 u j) * k0_pay14 v4 (ix2 u j) * k0_pay20 (k0_pay5 v2) (ix2 u j)
      + k0_pay15 (k0_pay8 v4) (k0_pay10 v4) (ix2 u j) * k0_pay15 (k0_pay8 v4) (k0_pay10 v4) (ix2 u j)
        * k0_pay21 (k0_pay5 v2) (ix2 u j)
      + k0_pay16 (k0_pay7 v4) (k0_pay8 v4) (k0_pay9 v4) (k0_pay10 v4) (ix2 u j)
        * k0_pay16 (k0_pay7 v4) (k0_pay8 v4) (k0_pay9 v4) (k0_pay10 v4) (ix2 u j) * k0_pay22 (k0_pay5 v2) (ix2 u j) = _
  rw [pay14_apply, pay15_apply, pay16_apply, pay20_apply, pay21_apply, pay22_apply]; rfl

theorem cov12_apply (v2 : Vec Ideal S16000x3 .f32) (v4 : Vec Ideal S16000x4 .f32) (u : Fin 1) (j : Fin 16000) :
    k0_pay28 (k0_pay14 v4) (k0_pay15 (k0_pay8 v4) (k0_pay10 v4)) (k0_pay16 (k0_pay7 v4) (k0_pay8 v4) (k0_pay9 v4) (k0_pay10 v4))
        (k0_pay17 (k0_pay7 v4) (k0_pay8 v4) (k0_pay9 v4) (k0_pay10 v4))
        (k0_pay18 (k0_pay7 v4) (k0_pay8 v4) (k0_pay9 v4) (k0_pay10 v4)) (k0_pay19 (k0_pay8 v4) (k0_pay9 v4))
        (k0_pay20 (k0_pay5 v2)) (k0_pay21 (k0_pay5 v2)) (k0_pay22 (k0_pay5 v2)) (ix2 u j)
      = cov (rotm (unit fun k => v4 (ix2 j k))) (fun k => Ideal.exp (v2 (ix2 j k))) 1 2 := by
  show k0_pay14 v4 (ix2 u j) * k0_pay17 (k0_pay7 v4) (k0_pay8 v4) (k0_pay9 v4) (k0_pay10 v4) (ix2 u j)
        * k0_pay20 (k0_pay5 v2) (ix2 u j)
      + k0_pay15 (k0_pay8 v4) (k0_pay10 v4) (ix2 u j) * k0_pay18 (k0_pay7 v4) (k0_pay8 v4) (k0_pay9 v4) (k0_pay10 v4) (ix2 u j)
        * k0_pay21 (k0_pay5 v2) (ix2 u j)
      + k0_pay16 (k0_pay7 v4) (k0_pay8 v4) (k0_pay9 v4) (k0_pay10 v4) (ix2 u j) * k0_pay19 (k0_pay8 v4) (k0_pay9 v4) (ix2 u j)
        * k0_pay22 (k0_pay5 v2) (ix2 u j) = _
  rw [pay14_apply, pay15_apply, pay16_apply, pay17_apply, pay18_apply, pay19_apply, pay20_apply, pay21_apply,
    pay22_apply]; rfl

theorem cov22_apply (v2 : Vec Ideal S16000x3 .f32) (v4 : Vec Ideal S16000x4 .f32) (u : Fin 1) (j : Fin 16000) :
    k0_pay29 (k0_pay17 (k0_pay7 v4) (k0_pay8 v4) (k0_pay9 v4) (k0_pay10 v4))
        (k0_pay18 (k0_pay7 v4) (k0_pay8 v4) (k0_pay9 v4) (k0_pay10 v4)) (k0_pay19 (k0_pay8 v4) (k0_pay9 v4))
        (k0_pay20 (k0_pay5 v2)) (k0_pay21 (k0_pay5 v2)) (k0_pay22 (k0_pay5 v2)) (ix2 u j)
      = cov (rotm (unit fun k => v4 (ix2 j k))) (fun k => Ideal.exp (v2 (ix2 j k))) 2 2 := by
  show k0_pay17 (k0_pay7 v4) (k0_pay8 v4) (k0_pay9 v4) (k0_pay10 v4) (ix2 u j)
        * k0_pay17 (k0_pay7 v4) (k0_pay8 v4) (k0_pay9 v4) (k0_pay10 v4) (ix2 u j) * k0_pay20 (k0_pay5 v2) (ix2 u j)
      + k0_pay18 (k0_pay7 v4) (k0_pay8 v4) (k0_pay9 v4) (k0_pay10 v4) (ix2 u j)
        * k0_pay18 (k0_pay7 v4) (k0_pay8 v4) (k0_pay9 v4) (k0_pay10 v4) (ix2 u j) * k0_pay21 (k0_pay5 v2) (ix2 u j)
      + k0_pay19 (k0_pay8 v4) (k0_pay9 v4) (ix2 u j) * k0_pay19 (k0_pay8 v4) (k0_pay9 v4) (ix2 u j)
        * k0_pay22 (k0_pay5 v2) (ix2 u j) = _
  rw [pay17_apply, pay18_apply, pay19_apply, pay20_apply, pay21_apply, pay22_apply]; rfl

/-! ## The three matrix products and the layers -/

theorem d1_lhs0 (i : S64x16000.Idx) (q : dot_S64x32_S32x16000_S64x16000_1_0_0_1_n_n.contr.Idx) : (dot_S64x32_S32x16000_S64x16000_1_0_0_1_n_n.lhsIdx i q 0).val = (i 0).val := by
  unfold DotDims.lhsIdx
  rw [dif_neg (show ¬(0 : Fin S64x32.rank) ∈ dot_S64x32_S32x16000_S64x16000_1_0_0_1_n_n.lhsBatch by decide),
    dif_pos (show (0 : Fin S64x32.rank) ∈ dot_S64x32_S32x16000_S64x16000_1_0_0_1_n_n.lhsNonContracting by decide)]
  rfl

theorem d1_rhs1 (i : S64x16000.Idx) (q : dot_S64x32_S32x16000_S64x16000_1_0_0_1_n_n.contr.Idx) : (dot_S64x32_S32x16000_S64x16000_1_0_0_1_n_n.rhsIdx i q 1).val = (i 1).val := by
  unfold DotDims.rhsIdx
  rw [dif_neg (show ¬(1 : Fin S32x16000.rank) ∈ dot_S64x32_S32x16000_S64x16000_1_0_0_1_n_n.rhsBatch by decide),
    dif_pos (show (1 : Fin S32x16000.rank) ∈ dot_S64x32_S32x16000_S64x16000_1_0_0_1_n_n.rhsNonContracting by decide)]
  rfl

/-- The product of a `64 × 32` matrix and a `32 × 16000` block into the zero accumulator, at `(i, j)`: the sum over the shared axis. -/
theorem mm1_apply (A : FVec Ideal S64x32 .f32) (B : FVec Ideal S32x16000 .f32) (i : Fin 64) (j : Fin 16000) :
    matmul dot_S64x32_S32x16000_S64x16000_1_0_0_1_n_n none A B (constant (F := Ideal) S64x16000 .f32 0x00000000#32) (ix2 i j)
      = ∑ k : Fin 32, A (ix2 i k) * B (ix2 k j) := by
  simp only [matmul]
  rw [Ideal.matmul_constant_zero_apply, ← Equiv.sum_comp (contrEquiv1 dot_S64x32_S32x16000_S64x16000_1_0_0_1_n_n 32 rfl rfl).symm]
  refine Finset.sum_congr rfl fun k _ => ?_
  have hk := contrEquiv1_symm_val dot_S64x32_S32x16000_S64x16000_1_0_0_1_n_n 32 rfl rfl k
  have el : dot_S64x32_S32x16000_S64x16000_1_0_0_1_n_n.lhsIdx (ix2 i j) ((contrEquiv1 dot_S64x32_S32x16000_S64x16000_1_0_0_1_n_n 32 rfl rfl).symm k) = ix2 i k :=
    funext fun c => Fin.ext (by
      match c with
      | ⟨0, _⟩ => exact d1_lhs0 _ _
      | ⟨1, _⟩ => exact (dot_S64x32_S32x16000_S64x16000_1_0_0_1_n_n.lhsIdx_val_of_single rfl _ _).trans hk)
  have er : dot_S64x32_S32x16000_S64x16000_1_0_0_1_n_n.rhsIdx (ix2 i j) ((contrEquiv1 dot_S64x32_S32x16000_S64x16000_1_0_0_1_n_n 32 rfl rfl).symm k) = ix2 k j :=
    funext fun c => Fin.ext (by
      match c with
      | ⟨0, _⟩ => exact (dot_S64x32_S32x16000_S64x16000_1_0_0_1_n_n.rhsIdx_val_of_single rfl _ _).trans hk
      | ⟨1, _⟩ => exact d1_rhs1 _ _)
  rw [el, er]

/-- With the bias column spread over the lanes added, it is one affine layer: the matrix is the layer's weight matrix transposed. -/
theorem layer1_apply (W : FVec Ideal S64x32 .f32) (X : FVec Ideal S32x16000 .f32) (c : FVec Ideal S64x1 .f32) (i : Fin 64) (j : Fin 16000) :
    addf (matmul dot_S64x32_S32x16000_S64x16000_1_0_0_1_n_n none W X (constant (F := Ideal) S64x16000 .f32 0x00000000#32))
        (broadcastTo S64x16000 c broadcasts_S64x1_S64x16000) (ix2 i j)
      = layer (fun k i => W (ix2 i k)) (fun i => c (ix2 i 0)) (fun k => X (ix2 k j)) i := by
  rw [addf_apply, mm1_apply, broadcastTo_a1_ab_apply]; rfl

theorem d2_lhs0 (i : S32x16000.Idx) (q : dot_S32x64_S64x16000_S32x16000_1_0_0_1_n_n.contr.Idx) : (dot_S32x64_S64x16000_S32x16000_1_0_0_1_n_n.lhsIdx i q 0).val = (i 0).val := by
  unfold DotDims.lhsIdx
  rw [dif_neg (show ¬(0 : Fin S32x64.rank) ∈ dot_S32x64_S64x16000_S32x16000_1_0_0_1_n_n.lhsBatch by decide),
    dif_pos (show (0 : Fin S32x64.rank) ∈ dot_S32x64_S64x16000_S32x16000_1_0_0_1_n_n.lhsNonContracting by decide)]
  rfl

theorem d2_rhs1 (i : S32x16000.Idx) (q : dot_S32x64_S64x16000_S32x16000_1_0_0_1_n_n.contr.Idx) : (dot_S32x64_S64x16000_S32x16000_1_0_0_1_n_n.rhsIdx i q 1).val = (i 1).val := by
  unfold DotDims.rhsIdx
  rw [dif_neg (show ¬(1 : Fin S64x16000.rank) ∈ dot_S32x64_S64x16000_S32x16000_1_0_0_1_n_n.rhsBatch by decide),
    dif_pos (show (1 : Fin S64x16000.rank) ∈ dot_S32x64_S64x16000_S32x16000_1_0_0_1_n_n.rhsNonContracting by decide)]
  rfl

/-- The product of a `32 × 64` matrix and a `64 × 16000` block into the zero accumulator, at `(i, j)`: the sum over the shared axis. -/
theorem mm2_apply (A : FVec Ideal S32x64 .f32) (B : FVec Ideal S64x16000 .f32) (i : Fin 32) (j : Fin 16000) :
    matmul dot_S32x64_S64x16000_S32x16000_1_0_0_1_n_n none A B (constant (F := Ideal) S32x16000 .f32 0x00000000#32) (ix2 i j)
      = ∑ k : Fin 64, A (ix2 i k) * B (ix2 k j) := by
  simp only [matmul]
  rw [Ideal.matmul_constant_zero_apply, ← Equiv.sum_comp (contrEquiv1 dot_S32x64_S64x16000_S32x16000_1_0_0_1_n_n 64 rfl rfl).symm]
  refine Finset.sum_congr rfl fun k _ => ?_
  have hk := contrEquiv1_symm_val dot_S32x64_S64x16000_S32x16000_1_0_0_1_n_n 64 rfl rfl k
  have el : dot_S32x64_S64x16000_S32x16000_1_0_0_1_n_n.lhsIdx (ix2 i j) ((contrEquiv1 dot_S32x64_S64x16000_S32x16000_1_0_0_1_n_n 64 rfl rfl).symm k) = ix2 i k :=
    funext fun c => Fin.ext (by
      match c with
      | ⟨0, _⟩ => exact d2_lhs0 _ _
      | ⟨1, _⟩ => exact (dot_S32x64_S64x16000_S32x16000_1_0_0_1_n_n.lhsIdx_val_of_single rfl _ _).trans hk)
  have er : dot_S32x64_S64x16000_S32x16000_1_0_0_1_n_n.rhsIdx (ix2 i j) ((contrEquiv1 dot_S32x64_S64x16000_S32x16000_1_0_0_1_n_n 64 rfl rfl).symm k) = ix2 k j :=
    funext fun c => Fin.ext (by
      match c with
      | ⟨0, _⟩ => exact (dot_S32x64_S64x16000_S32x16000_1_0_0_1_n_n.rhsIdx_val_of_single rfl _ _).trans hk
      | ⟨1, _⟩ => exact d2_rhs1 _ _)
  rw [el, er]

/-- With the bias column spread over the lanes added, it is one affine layer: the matrix is the layer's weight matrix transposed. -/
theorem layer2_apply (W : FVec Ideal S32x64 .f32) (X : FVec Ideal S64x16000 .f32) (c : FVec Ideal S32x1 .f32) (i : Fin 32) (j : Fin 16000) :
    addf (matmul dot_S32x64_S64x16000_S32x16000_1_0_0_1_n_n none W X (constant (F := Ideal) S32x16000 .f32 0x00000000#32))
        (broadcastTo S32x16000 c broadcasts_S32x1_S32x16000) (ix2 i j)
      = layer (fun k i => W (ix2 i k)) (fun i => c (ix2 i 0)) (fun k => X (ix2 k j)) i := by
  rw [addf_apply, mm2_apply, broadcastTo_a1_ab_apply]; rfl

theorem d3_lhs0 (i : S3x16000.Idx) (q : dot_S3x32_S32x16000_S3x16000_1_0_0_1_n_n.contr.Idx) : (dot_S3x32_S32x16000_S3x16000_1_0_0_1_n_n.lhsIdx i q 0).val = (i 0).val := by
  unfold DotDims.lhsIdx
  rw [dif_neg (show ¬(0 : Fin S3x32.rank) ∈ dot_S3x32_S32x16000_S3x16000_1_0_0_1_n_n.lhsBatch by decide),
    dif_pos (show (0 : Fin S3x32.rank) ∈ dot_S3x32_S32x16000_S3x16000_1_0_0_1_n_n.lhsNonContracting by decide)]
  rfl

theorem d3_rhs1 (i : S3x16000.Idx) (q : dot_S3x32_S32x16000_S3x16000_1_0_0_1_n_n.contr.Idx) : (dot_S3x32_S32x16000_S3x16000_1_0_0_1_n_n.rhsIdx i q 1).val = (i 1).val := by
  unfold DotDims.rhsIdx
  rw [dif_neg (show ¬(1 : Fin S32x16000.rank) ∈ dot_S3x32_S32x16000_S3x16000_1_0_0_1_n_n.rhsBatch by decide),
    dif_pos (show (1 : Fin S32x16000.rank) ∈ dot_S3x32_S32x16000_S3x16000_1_0_0_1_n_n.rhsNonContracting by decide)]
  rfl

/-- The product of a `3 × 32` matrix and a `32 × 16000` block into the zero accumulator, at `(i, j)`: the sum over the shared axis. -/
theorem mm3_apply (A : FVec Ideal S3x32 .f32) (B : FVec Ideal S32x16000 .f32) (i : Fin 3) (j : Fin 16000) :
    matmul dot_S3x32_S32x16000_S3x16000_1_0_0_1_n_n none A B (constant (F := Ideal) S3x16000 .f32 0x00000000#32) (ix2 i j)
      = ∑ k : Fin 32, A (ix2 i k) * B (ix2 k j) := by
  simp only [matmul]
  rw [Ideal.matmul_constant_zero_apply, ← Equiv.sum_comp (contrEquiv1 dot_S3x32_S32x16000_S3x16000_1_0_0_1_n_n 32 rfl rfl).symm]
  refine Finset.sum_congr rfl fun k _ => ?_
  have hk := contrEquiv1_symm_val dot_S3x32_S32x16000_S3x16000_1_0_0_1_n_n 32 rfl rfl k
  have el : dot_S3x32_S32x16000_S3x16000_1_0_0_1_n_n.lhsIdx (ix2 i j) ((contrEquiv1 dot_S3x32_S32x16000_S3x16000_1_0_0_1_n_n 32 rfl rfl).symm k) = ix2 i k :=
    funext fun c => Fin.ext (by
      match c with
      | ⟨0, _⟩ => exact d3_lhs0 _ _
      | ⟨1, _⟩ => exact (dot_S3x32_S32x16000_S3x16000_1_0_0_1_n_n.lhsIdx_val_of_single rfl _ _).trans hk)
  have er : dot_S3x32_S32x16000_S3x16000_1_0_0_1_n_n.rhsIdx (ix2 i j) ((contrEquiv1 dot_S3x32_S32x16000_S3x16000_1_0_0_1_n_n 32 rfl rfl).symm k) = ix2 k j :=
    funext fun c => Fin.ext (by
      match c with
      | ⟨0, _⟩ => exact (dot_S3x32_S32x16000_S3x16000_1_0_0_1_n_n.rhsIdx_val_of_single rfl _ _).trans hk
      | ⟨1, _⟩ => exact d3_rhs1 _ _)
  rw [el, er]

/-- With the bias column spread over the lanes added, it is one affine layer: the matrix is the layer's weight matrix transposed. -/
theorem layer3_apply (W : FVec Ideal S3x32 .f32) (X : FVec Ideal S32x16000 .f32) (c : FVec Ideal S3x1 .f32) (i : Fin 3) (j : Fin 16000) :
    addf (matmul dot_S3x32_S32x16000_S3x16000_1_0_0_1_n_n none W X (constant (F := Ideal) S3x16000 .f32 0x00000000#32))
        (broadcastTo S3x16000 c broadcasts_S3x1_S3x16000) (ix2 i j)
      = layer (fun k i => W (ix2 i k)) (fun i => c (ix2 i 0)) (fun k => X (ix2 k j)) i := by
  rw [addf_apply, mm3_apply, broadcastTo_a1_ab_apply]; rfl

/-- The first two layers, `relu` after the first. -/
theorem pay31_apply (v9 : FVec Ideal S32x16000 .f32) (x5 : Vec Ideal S64x32 .f32) (x6 : Vec Ideal S64x1 .f32)
    (x7 : Vec Ideal S32x64 .f32) (x8 : Vec Ideal S32x1 .f32) (i : Fin 32) (j : Fin 16000) :
    k0_pay31 v9 x5 x6 x7 x8 (ix2 i j)
      = layer (fun k i => x7 (ix2 i k)) (fun i => x8 (ix2 i 0))
          (fun k => relu (layer (fun k' i => x5 (ix2 i k')) (fun i => x6 (ix2 i 0)) (fun k' => v9 (ix2 k' j)) k)) i := by
  unfold k0_pay31
  simp only [shapeCast_self]
  rw [layer2_apply]
  refine congrArg (fun x => layer (fun k i => x7 (ix2 i k)) (fun i => x8 (ix2 i 0)) x i) (funext fun k => ?_)
  rw [maximumf_apply, layer1_apply, broadcast_apply]; rfl

/-- The third layer after `relu`, and the logistic function. -/
theorem colour_apply (v142 v143 : FVec Ideal S32x16000 .f32) (v145 : FVec Ideal S3x32 .f32) (v148 : FVec Ideal S3x1 .f32)
    (c : Fin 3) (j : Fin 16000) :
    logistic (addf (matmul dot_S3x32_S32x16000_S3x16000_1_0_0_1_n_n none (shapeCast S3x32 v145 shapeCasts_S3x32_S3x32)
          (maximumf v142 v143) (constant (F := Ideal) S3x16000 .f32 0x00000000#32))
        (broadcastTo S3x16000 (shapeCast S3x1 v148 shapeCasts_S3x1_S3x1) broadcasts_S3x1_S3x16000)) (ix2 c j)
      = Ideal.logistic (layer (fun k i => v145 (ix2 i k)) (fun i => v148 (ix2 i 0))
          (fun k => max (v142 (ix2 k j)) (v143 (ix2 k j))) c) := by
  refine congrArg Ideal.logistic ?_
  rw [shapeCast_self, shapeCast_self, layer3_apply]; rfl

/-! ## The stored block -/

theorem pay32_apply (i : S32x16000.Idx) : k0_pay32 (F := Ideal) i = c0 := rfl

/-- The shapes of the 14 joined pieces. -/
abbrev pieceShapes : List Shape :=
  [S3x16000, S3x16000, S4x16000, S1x16000, S3x16000, S1x16000, S1x16000, S1x16000, S1x16000, S1x16000, S1x16000, S1x16000,
    S1x16000, S1x16000]

/-- The 14 pieces joined along the first axis, read row by row: rows 0–2 the first piece, 3–5 the second, 6–9 the third,
    10 the fourth, 11–13 the colour, 14–22 the nine one-row pieces. -/
theorem pay1_apply (v1 v10 : FVec Ideal S3x16000 .f32) (v16 : FVec Ideal S4x16000 .f32)
    (v85 v93 v101 v109 v117 v125 v126 : FVec Ideal S1x16000 .f32) (v142 v143 : FVec Ideal S32x16000 .f32)
    (v145 : Vec Ideal S3x32 .f32) (v148 : Vec Ideal S3x1 .f32) (r : Fin 23) (j : Fin 16000) :
    k0_pay1 v1 v10 v16 v85 v93 v101 v109 v117 v125 v126 v142 v143 v145 v148 (ix2 r j)
      = ![v1 (ix2 0 j), v1 (ix2 1 j), v1 (ix2 2 j), v10 (ix2 0 j), v10 (ix2 1 j), v10 (ix2 2 j),
          v16 (ix2 0 j), v16 (ix2 1 j), v16 (ix2 2 j), v16 (ix2 3 j), v126 (ix2 0 j),
          Ideal.logistic (layer (fun k i => v145 (ix2 i k)) (fun i => v148 (ix2 i 0))
            (fun k => max (v142 (ix2 k j)) (v143 (ix2 k j))) 0),
          Ideal.logistic (layer (fun k i => v145 (ix2 i k)) (fun i => v148 (ix2 i 0))
            (fun k => max (v142 (ix2 k j)) (v143 (ix2 k j))) 1),
          Ideal.logistic (layer (fun k i => v145 (ix2 i k)) (fun i => v148 (ix2 i 0))
            (fun k => max (v142 (ix2 k j)) (v143 (ix2 k j))) 2),
          v85 (ix2 0 j), v93 (ix2 0 j), v101 (ix2 0 j), v93 (ix2 0 j), v109 (ix2 0 j), v117 (ix2 0 j),
          v101 (ix2 0 j), v117 (ix2 0 j), v125 (ix2 0 j)] r := by
  unfold k0_pay1
  match r with
  | ⟨0, _⟩ =>
    exact join_rows _ _ ⟨0, by decide⟩ j 0 (by show _ < 14; decide) 3 _ rfl pieceShapes rfl 0 (by decide) ⟨0, by decide⟩ rfl
  | ⟨1, _⟩ =>
    exact join_rows _ _ ⟨1, by decide⟩ j 0 (by show _ < 14; decide) 3 _ rfl pieceShapes rfl 0 (by decide) ⟨1, by decide⟩ rfl
  | ⟨2, _⟩ =>
    exact join_rows _ _ ⟨2, by decide⟩ j 0 (by show _ < 14; decide) 3 _ rfl pieceShapes rfl 0 (by decide) ⟨2, by decide⟩ rfl
  | ⟨3, _⟩ =>
    exact join_rows _ _ ⟨3, by decide⟩ j 1 (by show _ < 14; decide) 3 _ rfl pieceShapes rfl 3 (by decide) ⟨0, by decide⟩ rfl
  | ⟨4, _⟩ =>
    exact join_rows _ _ ⟨4, by decide⟩ j 1 (by show _ < 14; decide) 3 _ rfl pieceShapes rfl 3 (by decide) ⟨1, by decide⟩ rfl
  | ⟨5, _⟩ =>
    exact join_rows _ _ ⟨5, by decide⟩ j 1 (by show _ < 14; decide) 3 _ rfl pieceShapes rfl 3 (by decide) ⟨2, by decide⟩ rfl
  | ⟨6, _⟩ =>
    exact join_rows _ _ ⟨6, by decide⟩ j 2 (by show _ < 14; decide) 4 _ rfl pieceShapes rfl 6 (by decide) ⟨0, by decide⟩ rfl
  | ⟨7, _⟩ =>
    exact join_rows _ _ ⟨7, by decide⟩ j 2 (by show _ < 14; decide) 4 _ rfl pieceShapes rfl 6 (by decide) ⟨1, by decide⟩ rfl
  | ⟨8, _⟩ =>
    exact join_rows _ _ ⟨8, by decide⟩ j 2 (by show _ < 14; decide) 4 _ rfl pieceShapes rfl 6 (by decide) ⟨2, by decide⟩ rfl
  | ⟨9, _⟩ =>
    exact join_rows _ _ ⟨9, by decide⟩ j 2 (by show _ < 14; decide) 4 _ rfl pieceShapes rfl 6 (by decide) ⟨3, by decide⟩ rfl
  | ⟨10, _⟩ =>
    exact join_rows _ _ ⟨10, by decide⟩ j 3 (by show _ < 14; decide) 1 _ rfl pieceShapes rfl 10 (by decide) ⟨0, by decide⟩ rfl
  | ⟨11, _⟩ =>
    exact (join_rows _ _ ⟨11, by decide⟩ j 4 (by show _ < 14; decide) 3 _ rfl pieceShapes rfl 11 (by decide) ⟨0, by decide⟩ rfl).trans
      (colour_apply v142 v143 v145 v148 ⟨0, by decide⟩ j)
  | ⟨12, _⟩ =>
    exact (join_rows _ _ ⟨12, by decide⟩ j 4 (by show _ < 14; decide) 3 _ rfl pieceShapes rfl 11 (by decide) ⟨1, by decide⟩ rfl).trans
      (colour_apply v142 v143 v145 v148 ⟨1, by decide⟩ j)
  | ⟨13, _⟩ =>
    exact (join_rows _ _ ⟨13, by decide⟩ j 4 (by show _ < 14; decide) 3 _ rfl pieceShapes rfl 11 (by decide) ⟨2, by decide⟩ rfl).trans
      (colour_apply v142 v143 v145 v148 ⟨2, by decide⟩ j)
  | ⟨14, _⟩ =>
    exact join_rows _ _ ⟨14, by decide⟩ j 5 (by show _ < 14; decide) 1 _ rfl pieceShapes rfl 14 (by decide) ⟨0, by decide⟩ rfl
  | ⟨15, _⟩ =>
    exact join_rows _ _ ⟨15, by decide⟩ j 6 (by show _ < 14; decide) 1 _ rfl pieceShapes rfl 15 (by decide) ⟨0, by decide⟩ rfl
  | ⟨16, _⟩ =>
    exact join_rows _ _ ⟨16, by decide⟩ j 7 (by show _ < 14; decide) 1 _ rfl pieceShapes rfl 16 (by decide) ⟨0, by decide⟩ rfl
  | ⟨17, _⟩ =>
    exact join_rows _ _ ⟨17, by decide⟩ j 8 (by show _ < 14; decide) 1 _ rfl pieceShapes rfl 17 (by decide) ⟨0, by decide⟩ rfl
  | ⟨18, _⟩ =>
    exact join_rows _ _ ⟨18, by decide⟩ j 9 (by show _ < 14; decide) 1 _ rfl pieceShapes rfl 18 (by decide) ⟨0, by decide⟩ rfl
  | ⟨19, _⟩ =>
    exact join_rows _ _ ⟨19, by decide⟩ j 10 (by show _ < 14; decide) 1 _ rfl pieceShapes rfl 19 (by decide) ⟨0, by decide⟩ rfl
  | ⟨20, _⟩ =>
    exact join_rows _ _ ⟨20, by decide⟩ j 11 (by show _ < 14; decide) 1 _ rfl pieceShapes rfl 20 (by decide) ⟨0, by decide⟩ rfl
  | ⟨21, _⟩ =>
    exact join_rows _ _ ⟨21, by decide⟩ j 12 (by show _ < 14; decide) 1 _ rfl pieceShapes rfl 21 (by decide) ⟨0, by decide⟩ rfl
  | ⟨22, _⟩ =>
    exact join_rows _ _ ⟨22, by decide⟩ j 13 (by show _ < 14; decide) 1 _ rfl pieceShapes rfl 22 (by decide) ⟨0, by decide⟩ rfl
  | ⟨n + 23, h⟩ => exact absurd h (by omega)

/-- The stored value as a function of the eleven loaded blocks. -/
def pay (x0 : Vec Ideal S16000x3 .f32) (x1 : Vec Ideal S16000x3 .f32) (x2 : Vec Ideal S16000x4 .f32)
    (x3 : Vec Ideal S16000x1 .f32) (x4 : Vec Ideal S16000x32 .f32) (x5 : Vec Ideal S64x32 .f32) (x6 : Vec Ideal S64x1 .f32)
    (x7 : Vec Ideal S32x64 .f32) (x8 : Vec Ideal S32x1 .f32) (x9 : Vec Ideal S3x32 .f32) (x10 : Vec Ideal S3x1 .f32) :
    FVec Ideal S23x16000 .f32 :=
  k0_pay1 (k0_pay2 x0)
    (k0_pay5 x1)
    (k0_pay6 x2)
    (k0_pay23 (k0_pay5 x1) (k0_pay11 x2) (k0_pay12 x2) (k0_pay13 x2))
    (k0_pay24 (k0_pay5 x1) (k0_pay7 x2) (k0_pay8 x2) (k0_pay9 x2) (k0_pay10 x2) (k0_pay11 x2) (k0_pay12 x2) (k0_pay13 x2) (k0_pay14 x2))
    (k0_pay26 (k0_pay12 x2) (k0_pay13 x2) (k0_pay18 (k0_pay7 x2) (k0_pay8 x2) (k0_pay9 x2) (k0_pay10 x2)) (k0_pay19 (k0_pay8 x2) (k0_pay9 x2)) (k0_pay21 (k0_pay5 x1)) (k0_pay22 (k0_pay5 x1)) (k0_pay25 (k0_pay5 x1) (k0_pay7 x2) (k0_pay8 x2) (k0_pay9 x2) (k0_pay10 x2) (k0_pay11 x2)))
    (k0_pay27 (k0_pay14 x2) (k0_pay15 (k0_pay8 x2) (k0_pay10 x2)) (k0_pay16 (k0_pay7 x2) (k0_pay8 x2) (k0_pay9 x2) (k0_pay10 x2)) (k0_pay20 (k0_pay5 x1)) (k0_pay21 (k0_pay5 x1)) (k0_pay22 (k0_pay5 x1)))
    (k0_pay28 (k0_pay14 x2) (k0_pay15 (k0_pay8 x2) (k0_pay10 x2)) (k0_pay16 (k0_pay7 x2) (k0_pay8 x2) (k0_pay9 x2) (k0_pay10 x2)) (k0_pay17 (k0_pay7 x2) (k0_pay8 x2) (k0_pay9 x2) (k0_pay10 x2)) (k0_pay18 (k0_pay7 x2) (k0_pay8 x2) (k0_pay9 x2) (k0_pay10 x2)) (k0_pay19 (k0_pay8 x2) (k0_pay9 x2)) (k0_pay20 (k0_pay5 x1)) (k0_pay21 (k0_pay5 x1)) (k0_pay22 (k0_pay5 x1)))
    (k0_pay29 (k0_pay17 (k0_pay7 x2) (k0_pay8 x2) (k0_pay9 x2) (k0_pay10 x2)) (k0_pay18 (k0_pay7 x2) (k0_pay8 x2) (k0_pay9 x2) (k0_pay10 x2)) (k0_pay19 (k0_pay8 x2) (k0_pay9 x2)) (k0_pay20 (k0_pay5 x1)) (k0_pay21 (k0_pay5 x1)) (k0_pay22 (k0_pay5 x1)))
    (k0_pay30 (k0_pay3 x3))
    (k0_pay31 (k0_pay4 x4) x5 x6 x7 x8)
    (k0_pay32 (F := Ideal))
    x9
    x10

/-- Column `j` of the stored block is the specification's row of Gaussian `j` of the loaded blocks: the weight blocks are
    the transposed weight matrices, the bias blocks columns. -/
theorem pay_apply (x0 : Vec Ideal S16000x3 .f32) (x1 : Vec Ideal S16000x3 .f32) (x2 : Vec Ideal S16000x4 .f32)
    (x3 : Vec Ideal S16000x1 .f32) (x4 : Vec Ideal S16000x32 .f32) (x5 : Vec Ideal S64x32 .f32) (x6 : Vec Ideal S64x1 .f32)
    (x7 : Vec Ideal S32x64 .f32) (x8 : Vec Ideal S32x1 .f32) (x9 : Vec Ideal S3x32 .f32) (x10 : Vec Ideal S3x1 .f32)
    (r : Fin 23) (j : Fin 16000) :
    pay x0 x1 x2 x3 x4 x5 x6 x7 x8 x9 x10 (ix2 r j)
      = row (fun k => x0 (ix2 j k)) (fun k => x1 (ix2 j k)) (fun k => x2 (ix2 j k)) (x3 (ix2 j 0)) (fun k => x4 (ix2 j k))
          (fun k i => x5 (ix2 i k)) (fun i => x6 (ix2 i 0)) (fun k i => x7 (ix2 i k)) (fun i => x8 (ix2 i 0))
          (fun k i => x9 (ix2 i k)) (fun i => x10 (ix2 i 0)) r := by
  unfold pay
  rw [pay1_apply]
  simp only [pay2_apply, pay5_apply, pay6_apply, pay30_apply, pay31_apply, pay32_apply, pay4_apply, cov00_apply,
    cov01_apply, cov02_apply, cov11_apply, cov12_apply, cov22_apply]
  rfl

end Cert.Splat.Kernel

end
-- ==== Proof.KernelValue.lean ====
/-
  The kernel's result array.

  The grid has 125 points; point `t` takes rows `16000 t … 16000 t + 15999` of the five per-Gaussian arrays and the whole of the
  six weight arrays (the three weight matrices transposed and the three biases as columns, as the host lines before the call
  leave them), and writes columns `16000 t … 16000 t + 15999` of a 23 × 2000000 array: column `n` is the 23 outputs of Gaussian
  `n`. The 125 column blocks cover the array, so after the call it is `GT` of the arguments; the host line after the call
  transposes it, which is `G`.
-/
import proofs.«165548_j52338471469394_2_alg».proof.Defs
import proofs.«165548_j52338471469394_2_alg».proof.Proof.Gen.KernelIdeal.Frame
import proofs.«165548_j52338471469394_2_alg».proof.Proof.Spec
import proofs.«165548_j52338471469394_2_alg».proof.Proof.KernelRow
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Splat.Kernel

open Cert.KernelIdeal Cert.KernelIdeal.Gen Cert.Splat

variable (m : (ℓ : Loc nD τ sig) → Buf (Elt Ideal) ℓ) (ρ : Dev nD → PrngReg)

theorem hz : (![0, 0] : Fin 2 → Nat) = fun _ => 0 := funext fun a => by fin_cases a <;> rfl

/-- The block index of each window at each grid point: the per-Gaussian arrays move along their first axis with the point,
    the weights stay, the output moves along its second axis. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = t.val) :=
  (by decide +kernel : ∀ t : Fin grid0.N, _)

theorem t_lt (t : Fin cfg0.N) : t.val < 125 := lt_of_lt_of_eq t.isLt N_0

/-- Gaussian `16000 t + j`: the `j`-th of point `t`'s block. -/
def gauss (t : Fin cfg0.N) (j : Fin 16000) : Fin 2000000 :=
  ⟨t.val * 16000 + j.val, by have := t_lt t; have := j.isLt; omega⟩

/-! ## The argument arrays, and the weights as the call finds them -/

abbrev aPos (c : Dev nD) : A2 2000000 3 := m ((c : Thread nD τ).loc main_arg0)
abbrev aScl (c : Dev nD) : A2 2000000 3 := m ((c : Thread nD τ).loc main_arg1)
abbrev aRot (c : Dev nD) : A2 2000000 4 := m ((c : Thread nD τ).loc main_arg2)
abbrev aOp (c : Dev nD) : A2 2000000 1 := m ((c : Thread nD τ).loc main_arg3)
abbrev aFeat (c : Dev nD) : A2 2000000 32 := m ((c : Thread nD τ).loc main_arg4)
abbrev aW1 (c : Dev nD) : A2 32 64 := m ((c : Thread nD τ).loc main_arg5)
abbrev aB1 (c : Dev nD) : A1 64 := m ((c : Thread nD τ).loc main_arg6)
abbrev aW2 (c : Dev nD) : A2 64 32 := m ((c : Thread nD τ).loc main_arg7)
abbrev aB2 (c : Dev nD) : A1 32 := m ((c : Thread nD τ).loc main_arg8)
abbrev aW3 (c : Dev nD) : A2 32 3 := m ((c : Thread nD τ).loc main_arg9)
abbrev aB3 (c : Dev nD) : A1 3 := m ((c : Thread nD τ).loc main_arg10)

/-- The result array in the kernel's layout, from the argument arrays. -/
abbrev resT (c : Dev nD) : A2 23 2000000 :=
  GT (aPos m c) (aScl m c) (aRot m c) (aOp m c) (aFeat m c) (aW1 m c) (aB1 m c) (aW2 m c) (aB2 m c) (aW3 m c) (aB3 m c)

/-- The result array, from the argument arrays. -/
abbrev res (c : Dev nD) : A2 2000000 23 :=
  G (aPos m c) (aScl m c) (aRot m c) (aOp m c) (aFeat m c) (aW1 m c) (aB1 m c) (aW2 m c) (aB2 m c) (aW3 m c) (aB3 m c)

/-- The first weight matrix as the call finds it: transposed. -/
theorem V_w1 (c : Dev nD) : (V m c main_v0 : S64x32.Idx → EReal) = transpose S64x32 [1, 0] (aW1 m c) transposes_S32x64_S64x32_1_0 := by
  show StableHlo.after hostOps0 (fun b => m (c, b)) (Proc.devRef .tc main_v0) = _
  after_results
theorem V_w2 (c : Dev nD) : (V m c main_v1 : S32x64.Idx → EReal) = transpose S32x64 [1, 0] (aW2 m c) transposes_S64x32_S32x64_1_0 := by
  show StableHlo.after hostOps0 (fun b => m (c, b)) (Proc.devRef .tc main_v1) = _
  after_results
theorem V_w3 (c : Dev nD) : (V m c main_v2 : S3x32.Idx → EReal) = transpose S3x32 [1, 0] (aW3 m c) transposes_S32x3_S3x32_1_0 := by
  show StableHlo.after hostOps0 (fun b => m (c, b)) (Proc.devRef .tc main_v2) = _
  after_results
/-- The biases as the call finds them: columns. -/
theorem V_b1 (c : Dev nD) : (V m c main_v3 : S64x1.Idx → EReal) = shapeCast S64x1 (aB1 m c) shapeCasts_S64_S64x1 := by
  show StableHlo.after hostOps0 (fun b => m (c, b)) (Proc.devRef .tc main_v3) = _
  after_results; rfl
theorem V_b2 (c : Dev nD) : (V m c main_v4 : S32x1.Idx → EReal) = shapeCast S32x1 (aB2 m c) shapeCasts_S32_S32x1 := by
  show StableHlo.after hostOps0 (fun b => m (c, b)) (Proc.devRef .tc main_v4) = _
  after_results; rfl
theorem V_b3 (c : Dev nD) : (V m c main_v5 : S3x1.Idx → EReal) = shapeCast S3x1 (aB3 m c) shapeCasts_S3_S3x1 := by
  show StableHlo.after hostOps0 (fun b => m (c, b)) (Proc.devRef .tc main_v5) = _
  after_results; rfl

/-! ## Each input block, read at an index -/

theorem blk_pos (c : Dev nD) (t : Fin cfg0.N) (j : Fin 16000) (k : Fin 3) :
    (iblk m c 0 t : Vec Ideal S16000x3 .f32) (ix2 j k) = aPos m c (ix2 (gauss t j) k) := by
  obtain ⟨⟨e0, e1⟩, -⟩ := idx_facts t
  unfold iblk
  rw [View.read_apply]
  show V m c main_arg0 _ = _
  rw [V_main_arg0]
  congr 1
  funext a; apply Fin.ext
  match a with
  | ⟨0, _⟩ => show win0_0.index t (0 : Fin 2) * 16000 + 1 * j.val = t.val * 16000 + j.val; rw [e0]; omega
  | ⟨1, _⟩ => show win0_0.index t (1 : Fin 2) * 3 + 1 * k.val = k.val; rw [e1]; omega

theorem blk_scl (c : Dev nD) (t : Fin cfg0.N) (j : Fin 16000) (k : Fin 3) :
    (iblk m c 1 t : Vec Ideal S16000x3 .f32) (ix2 j k) = aScl m c (ix2 (gauss t j) k) := by
  have hf := idx_facts t
  have e0 : win0_1.index t (0 : Fin 2) = t.val := by obtain ⟨-, e, -, -, -, -, -, -, -, -, -, -⟩ := hf; exact e.1
  have e1 : win0_1.index t (1 : Fin 2) = 0 := by obtain ⟨-, e, -, -, -, -, -, -, -, -, -, -⟩ := hf; exact e.2
  unfold iblk
  rw [View.read_apply]
  show V m c main_arg1 _ = _
  rw [V_main_arg1]
  congr 1
  funext a; apply Fin.ext
  match a with
  | ⟨0, _⟩ => show win0_1.index t (0 : Fin 2) * 16000 + 1 * j.val = t.val * 16000 + j.val; rw [e0]; omega
  | ⟨1, _⟩ => show win0_1.index t (1 : Fin 2) * 3 + 1 * k.val = k.val; rw [e1]; omega

theorem blk_rot (c : Dev nD) (t : Fin cfg0.N) (j : Fin 16000) (k : Fin 4) :
    (iblk m c 2 t : Vec Ideal S16000x4 .f32) (ix2 j k) = aRot m c (ix2 (gauss t j) k) := by
  have hf := idx_facts t
  have e0 : win0_2.index t (0 : Fin 2) = t.val := by obtain ⟨-, -, e, -, -, -, -, -, -, -, -, -⟩ := hf; exact e.1
  have e1 : win0_2.index t (1 : Fin 2) = 0 := by obtain ⟨-, -, e, -, -, -, -, -, -, -, -, -⟩ := hf; exact e.2
  unfold iblk
  rw [View.read_apply]
  show V m c main_arg2 _ = _
  rw [V_main_arg2]
  congr 1
  funext a; apply Fin.ext
  match a with
  | ⟨0, _⟩ => show win0_2.index t (0 : Fin 2) * 16000 + 1 * j.val = t.val * 16000 + j.val; rw [e0]; omega
  | ⟨1, _⟩ => show win0_2.index t (1 : Fin 2) * 4 + 1 * k.val = k.val; rw [e1]; omega

theorem blk_op (c : Dev nD) (t : Fin cfg0.N) (j : Fin 16000) (k : Fin 1) :
    (iblk m c 3 t : Vec Ideal S16000x1 .f32) (ix2 j k) = aOp m c (ix2 (gauss t j) k) := by
  have hf := idx_facts t
  have e0 : win0_3.index t (0 : Fin 2) = t.val := by obtain ⟨-, -, -, e, -, -, -, -, -, -, -, -⟩ := hf; exact e.1
  have e1 : win0_3.index t (1 : Fin 2) = 0 := by obtain ⟨-, -, -, e, -, -, -, -, -, -, -, -⟩ := hf; exact e.2
  unfold iblk
  rw [View.read_apply]
  show V m c main_arg3 _ = _
  rw [V_main_arg3]
  congr 1
  funext a; apply Fin.ext
  match a with
  | ⟨0, _⟩ => show win0_3.index t (0 : Fin 2) * 16000 + 1 * j.val = t.val * 16000 + j.val; rw [e0]; omega
  | ⟨1, _⟩ => show win0_3.index t (1 : Fin 2) * 1 + 1 * k.val = k.val; rw [e1]; omega

theorem blk_feat (c : Dev nD) (t : Fin cfg0.N) (j : Fin 16000) (k : Fin 32) :
    (iblk m c 4 t : Vec Ideal S16000x32 .f32) (ix2 j k) = aFeat m c (ix2 (gauss t j) k) := by
  have hf := idx_facts t
  have e0 : win0_4.index t (0 : Fin 2) = t.val := by obtain ⟨-, -, -, -, e, -, -, -, -, -, -, -⟩ := hf; exact e.1
  have e1 : win0_4.index t (1 : Fin 2) = 0 := by obtain ⟨-, -, -, -, e, -, -, -, -, -, -, -⟩ := hf; exact e.2
  unfold iblk
  rw [View.read_apply]
  show V m c main_arg4 _ = _
  rw [V_main_arg4]
  congr 1
  funext a; apply Fin.ext
  match a with
  | ⟨0, _⟩ => show win0_4.index t (0 : Fin 2) * 16000 + 1 * j.val = t.val * 16000 + j.val; rw [e0]; omega
  | ⟨1, _⟩ => show win0_4.index t (1 : Fin 2) * 32 + 1 * k.val = k.val; rw [e1]; omega

theorem blk_w1 (c : Dev nD) (t : Fin cfg0.N) (i : Fin 64) (k : Fin 32) :
    (iblk m c 5 t : Vec Ideal S64x32 .f32) (ix2 i k) = aW1 m c (ix2 k i) := by
  have hf := idx_facts t
  have e0 : win0_5.index t (0 : Fin 2) = 0 := by obtain ⟨-, -, -, -, -, e, -, -, -, -, -, -⟩ := hf; exact e.1
  have e1 : win0_5.index t (1 : Fin 2) = 0 := by obtain ⟨-, -, -, -, -, e, -, -, -, -, -, -⟩ := hf; exact e.2
  unfold iblk
  rw [View.read_apply]
  show V m c main_v0 _ = _
  rw [V_w1]
  refine Eq.trans (congrArg _ ?_) (transpose_ix2_apply (aW1 m c) transposes_S32x64_S64x32_1_0 i k)
  funext a; apply Fin.ext
  match a with
  | ⟨0, _⟩ => show win0_5.index t (0 : Fin 2) * 64 + 1 * i.val = i.val; rw [e0]; omega
  | ⟨1, _⟩ => show win0_5.index t (1 : Fin 2) * 32 + 1 * k.val = k.val; rw [e1]; omega

theorem blk_b1 (c : Dev nD) (t : Fin cfg0.N) (i : Fin 64) :
    (iblk m c 6 t : Vec Ideal S64x1 .f32) (ix2 i 0) = aB1 m c (ix1 i) := by
  have hf := idx_facts t
  have e0 : win0_6.index t (0 : Fin 2) = 0 := by obtain ⟨-, -, -, -, -, -, e, -, -, -, -, -⟩ := hf; exact e.1
  have e1 : win0_6.index t (1 : Fin 2) = 0 := by obtain ⟨-, -, -, -, -, -, e, -, -, -, -, -⟩ := hf; exact e.2
  unfold iblk
  rw [View.read_apply]
  show V m c main_v3 _ = _
  rw [V_b1]
  refine shapeCast_apply _ _ _ _ ?_
  rw [Shape.rowMajor_val_one, Shape.rowMajor_val_two]
  show i.val = (win0_6.index t (0 : Fin 2) * 64 + 1 * i.val) * 1 + (win0_6.index t (1 : Fin 2) * 1 + 1 * 0)
  rw [e0, e1]; omega

theorem blk_w2 (c : Dev nD) (t : Fin cfg0.N) (i : Fin 32) (k : Fin 64) :
    (iblk m c 7 t : Vec Ideal S32x64 .f32) (ix2 i k) = aW2 m c (ix2 k i) := by
  have hf := idx_facts t
  have e0 : win0_7.index t (0 : Fin 2) = 0 := by obtain ⟨-, -, -, -, -, -, -, e, -, -, -, -⟩ := hf; exact e.1
  have e1 : win0_7.index t (1 : Fin 2) = 0 := by obtain ⟨-, -, -, -, -, -, -, e, -, -, -, -⟩ := hf; exact e.2
  unfold iblk
  rw [View.read_apply]
  show V m c main_v1 _ = _
  rw [V_w2]
  refine Eq.trans (congrArg _ ?_) (transpose_ix2_apply (aW2 m c) transposes_S64x32_S32x64_1_0 i k)
  funext a; apply Fin.ext
  match a with
  | ⟨0, _⟩ => show win0_7.index t (0 : Fin 2) * 32 + 1 * i.val = i.val; rw [e0]; omega
  | ⟨1, _⟩ => show win0_7.index t (1 : Fin 2) * 64 + 1 * k.val = k.val; rw [e1]; omega

theorem blk_b2 (c : Dev nD) (t : Fin cfg0.N) (i : Fin 32) :
    (iblk m c 8 t : Vec Ideal S32x1 .f32) (ix2 i 0) = aB2 m c (ix1 i) := by
  have hf := idx_facts t
  have e0 : win0_8.index t (0 : Fin 2) = 0 := by obtain ⟨-, -, -, -, -, -, -, -, e, -, -, -⟩ := hf; exact e.1
  have e1 : win0_8.index t (1 : Fin 2) = 0 := by obtain ⟨-, -, -, -, -, -, -, -, e, -, -, -⟩ := hf; exact e.2
  unfold iblk
  rw [View.read_apply]
  show V m c main_v4 _ = _
  rw [V_b2]
  refine shapeCast_apply _ _ _ _ ?_
  rw [Shape.rowMajor_val_one, Shape.rowMajor_val_two]
  show i.val = (win0_8.index t (0 : Fin 2) * 32 + 1 * i.val) * 1 + (win0_8.index t (1 : Fin 2) * 1 + 1 * 0)
  rw [e0, e1]; omega

theorem blk_w3 (c : Dev nD) (t : Fin cfg0.N) (i : Fin 3) (k : Fin 32) :
    (iblk m c 9 t : Vec Ideal S3x32 .f32) (ix2 i k) = aW3 m c (ix2 k i) := by
  have hf := idx_facts t
  have e0 : win0_9.index t (0 : Fin 2) = 0 := by obtain ⟨-, -, -, -, -, -, -, -, -, e, -, -⟩ := hf; exact e.1
  have e1 : win0_9.index t (1 : Fin 2) = 0 := by obtain ⟨-, -, -, -, -, -, -, -, -, e, -, -⟩ := hf; exact e.2
  unfold iblk
  rw [View.read_apply]
  show V m c main_v2 _ = _
  rw [V_w3]
  refine Eq.trans (congrArg _ ?_) (transpose_ix2_apply (aW3 m c) transposes_S32x3_S3x32_1_0 i k)
  funext a; apply Fin.ext
  match a with
  | ⟨0, _⟩ => show win0_9.index t (0 : Fin 2) * 3 + 1 * i.val = i.val; rw [e0]; omega
  | ⟨1, _⟩ => show win0_9.index t (1 : Fin 2) * 32 + 1 * k.val = k.val; rw [e1]; omega

theorem blk_b3 (c : Dev nD) (t : Fin cfg0.N) (i : Fin 3) :
    (iblk m c 10 t : Vec Ideal S3x1 .f32) (ix2 i 0) = aB3 m c (ix1 i) := by
  have hf := idx_facts t
  have e0 : win0_10.index t (0 : Fin 2) = 0 := by obtain ⟨-, -, -, -, -, -, -, -, -, -, e, -⟩ := hf; exact e.1
  have e1 : win0_10.index t (1 : Fin 2) = 0 := by obtain ⟨-, -, -, -, -, -, -, -, -, -, e, -⟩ := hf; exact e.2
  unfold iblk
  rw [View.read_apply]
  show V m c main_v5 _ = _
  rw [V_b3]
  refine shapeCast_apply _ _ _ _ ?_
  rw [Shape.rowMajor_val_one, Shape.rowMajor_val_two]
  show i.val = (win0_10.index t (0 : Fin 2) * 3 + 1 * i.val) * 1 + (win0_10.index t (1 : Fin 2) * 1 + 1 * 0)
  rw [e0, e1]; omega

/-! ## What a grid point writes -/

/-- Entry `(r, j)` of what point `t` computes is output `r` of Gaussian `16000 t + j`. -/
theorem point_value (c : Dev nD) (t : Fin cfg0.N) (r : Fin 23) (j : Fin 16000) :
    pay (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = resT m c (ix2 r (gauss t j)) := by
  rw [pay_apply]
  simp only [blk_pos, blk_scl, blk_rot, blk_op, blk_feat, blk_w1, blk_b1, blk_w2, blk_b2, blk_w3, blk_b3]
  rfl

/-- What point `t` writes back is column block `t` of the result array. -/
theorem flushed_eq (c : Dev nD) (t : Fin cfg0.N) :
    (dats m 0 c).flushed 11 t = ((cfg0.win 11).blk t).view.read (Elt Ideal) (resT m c) := by
  have hf := idx_facts t
  have e0 : win0_11.index t (0 : Fin 2) = 0 := by obtain ⟨-, -, -, -, -, -, -, -, -, -, -, e⟩ := hf; exact e.1
  have e1 : win0_11.index t (1 : Fin 2) = t.val := by obtain ⟨-, -, -, -, -, -, -, -, -, -, -, e⟩ := hf; exact e.2
  show (cfg0.win 11).cut (grid0.coords t) ((dats m 0 c).after 11 t) = _
  rw [after0_11]
  unfold out0_11
  rw [View.canon_unit_zero hz]
  simp only [View.ld_unit_zero (S := S16000x3) hz, View.ld_unit_zero (S := S16000x4) hz, View.ld_unit_zero (S := S16000x1) hz,
    View.ld_unit_zero (S := S16000x32) hz, View.ld_unit_zero (S := S64x32) hz, View.ld_unit_zero (S := S64x1) hz,
    View.ld_unit_zero (S := S32x64) hz, View.ld_unit_zero (S := S32x1) hz, View.ld_unit_zero (S := S3x32) hz,
    View.ld_unit_zero (S := S3x1) hz]
  funext (y : S23x16000.Idx)
  obtain ⟨r, j, rfl⟩ : ∃ (r : Fin 23) (j : Fin 16000), y = ix2 r j := ⟨y 0, y 1, eq_ix2 y⟩
  rw [View.read_apply]
  show pay (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) = resT m c _
  rw [point_value]
  congr 1
  funext a; apply Fin.ext
  match a with
  | ⟨0, _⟩ => show r.val = win0_11.index t (0 : Fin 2) * 23 + 1 * r.val; rw [e0]; omega
  | ⟨1, _⟩ => show t.val * 16000 + j.val = win0_11.index t (1 : Fin 2) * 16000 + 1 * j.val; rw [e1]; omega

/-- The 125 column blocks cover the array, so after the call it is the result in the kernel's layout. -/
theorem final11 (c : Dev nD) : (dats m 0 c).arrAt 11 cfg0.N = resT m c :=
  (dats m 0 c).arrAt_eq_of_cover 11 (resT m c) (fun t _ => flushed_eq m c t) fun i => by
    have hi0 : (i 0).val < 23 := (i 0).isLt
    have hi1 : (i 1).val < 2000000 := (i 1).isLt
    have ht : (i 1).val / 16000 < cfg0.N := by rw [show cfg0.N = 125 from N_0]; omega
    have hf := idx_facts ⟨(i 1).val / 16000, ht⟩
    have e0 : win0_11.index ⟨(i 1).val / 16000, ht⟩ (0 : Fin 2) = 0 := by obtain ⟨-, -, -, -, -, -, -, -, -, -, -, e⟩ := hf; exact e.1
    have e1 : win0_11.index ⟨(i 1).val / 16000, ht⟩ (1 : Fin 2) = (i 1).val / 16000 := by obtain ⟨-, -, -, -, -, -, -, -, -, -, -, e⟩ := hf; exact e.2
    refine ⟨⟨(i 1).val / 16000, ht⟩, flush0_11 _, ?_⟩
    show i ∈ ((View.whole main_v6).slice (win0_11.rect ⟨(i 1).val / 16000, ht⟩)).set
    rw [View.set_slice_whole, Rect.mem_set_unit]
    intro a
    match a with
    | ⟨0, _⟩ =>
      show win0_11.index ⟨(i 1).val / 16000, ht⟩ (0 : Fin 2) * 23 ≤ (i 0).val ∧ (i 0).val < win0_11.index ⟨(i 1).val / 16000, ht⟩ (0 : Fin 2) * 23 + 23
      rw [e0]; omega
    | ⟨1, _⟩ =>
      show win0_11.index ⟨(i 1).val / 16000, ht⟩ (1 : Fin 2) * 16000 ≤ (i 1).val ∧ (i 1).val < win0_11.index ⟨(i 1).val / 16000, ht⟩ (1 : Fin 2) * 16000 + 16000
      rw [e1]; omega

/-! ## The host line after the call, and the run -/

/-- The transpose after the call turns the kernel's layout into the result array. -/
theorem tail_eq (c : Dev nD) : Pipeline.afterTail₀ cfgs (dats m) 0 (V0 m) [hostOps1] c main_v7 = res m c := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v6) = resT m c :=
    (Pipeline.withArrays_arr spec0 launch0.win.arr_inj c _ _ 11).trans (final11 m c)
  rw [hA]
  funext i
  obtain ⟨n, r, rfl⟩ : ∃ (n : Fin 2000000) (r : Fin 23), i = ix2 n r := ⟨i 0, i 1, eq_ix2 i⟩
  rw [transpose_ix2_apply]
  rfl

/-- The run, read: every weakly fair execution terminates with the result array at `G` of the argument arrays and the
    argument arrays unchanged. -/
theorem run : θ_run defs (onTc (τ := τ) (main (F := Ideal))) ⟨m, fun _ => 0, ρ⟩ fun r => ∀ c : Dev nD,
      r.2.mem ((c.tc : Thread nD τ).loc main_v7) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.Splat.Kernel

end
-- ==== Proof.RefValue.lean ====
/-
  The reference program's result, read index by index, is the specification's `G`.

  The reference's last operation joins six arrays along the second axis: the positions (3 columns), the exponentials of the
  log-scales (3), the quaternions divided by their lengths (4), the sigmoid of the opacity logit (1), the colour network's
  output (3) and the covariance `(R diag e)(R diag e)ᵀ` reshaped to 9 columns. Each group of columns is read back through
  the operations that produced it, down to the argument arrays, and compared with the specification's row.
  The only hypothesis is that every quaternion has positive squared length: it is what makes the quotient by the length
  equal to the product with the inverse square root of the squared length.
-/
import proofs.«165548_j52338471469394_2_alg».proof.Proof.Gen.ReferenceIdeal.Read
import proofs.«165548_j52338471469394_2_alg».proof.Proof.Spec
import Idealize.ShloMosaic.Lib.Pipeline.Value
import Idealize.ShloMosaic.Lib.ValueIdx
import Idealize.ShloMosaic.PureOps.Ideal.Laws

noncomputable section

namespace Cert.Splat.Ref

open Cert.ReferenceIdeal Cert.ReferenceIdeal.Read Cert.Splat Idealize.ShloMosaic Idealize.ShloMosaic.ValueIdx

variable (x0 x1 : (⟨S2000000x3, .f32⟩ : BufTy).Contents (Elt Ideal)) (x2 : (⟨S2000000x4, .f32⟩ : BufTy).Contents (Elt Ideal))
  (x3 : (⟨S2000000x1, .f32⟩ : BufTy).Contents (Elt Ideal)) (x4 : (⟨S2000000x32, .f32⟩ : BufTy).Contents (Elt Ideal))
  (x5 : (⟨S32x64, .f32⟩ : BufTy).Contents (Elt Ideal)) (x6 : (⟨S64, .f32⟩ : BufTy).Contents (Elt Ideal))
  (x7 : (⟨S64x32, .f32⟩ : BufTy).Contents (Elt Ideal)) (x8 : (⟨S32, .f32⟩ : BufTy).Contents (Elt Ideal))
  (x9 : (⟨S32x3, .f32⟩ : BufTy).Contents (Elt Ideal)) (x10 : (⟨S3, .f32⟩ : BufTy).Contents (Elt Ideal))

/-! ## The last operation: six pieces side by side

Column `pre + c` of the result, `pre` the total width of the pieces before piece `k` and `c` a column of piece `k`, is
column `c` of piece `k`. -/

theorem out_pos (n : Fin 2000000) (c : Fin 3) :
    val_main_v110 (F := Ideal) x0 x1 x2 x3 x4 x5 x6 x7 x8 x9 x10 (ix2 n ⟨c.val, by omega⟩) = x0 (ix2 n c) := by
  unfold val_main_v110
  exact concatenate_apply_piece (t := S2000000x23) 1 _ _ (ix2 n ⟨c.val, by omega⟩) 0 (by show (0 : Nat) < 6; decide) S2000000x3 x0 rfl rfl 0 rfl (ix2 n c)
    (fun b => match b with | ⟨0, _⟩ => fun _ => rfl | ⟨1, _⟩ => fun hb => absurd rfl hb) (Nat.zero_add _)

theorem out_scale (n : Fin 2000000) (c : Fin 3) :
    val_main_v110 (F := Ideal) x0 x1 x2 x3 x4 x5 x6 x7 x8 x9 x10 (ix2 n ⟨3 + c.val, by omega⟩)
      = val_main_v0 (F := Ideal) x1 (ix2 n c) := by
  unfold val_main_v110
  exact concatenate_apply_piece (t := S2000000x23) 1 _ _ (ix2 n ⟨3 + c.val, by omega⟩) 1 (by show (1 : Nat) < 6; decide) S2000000x3 _ rfl rfl 3 rfl (ix2 n c)
    (fun b => match b with | ⟨0, _⟩ => fun _ => rfl | ⟨1, _⟩ => fun hb => absurd rfl hb) rfl

theorem out_quat (n : Fin 2000000) (c : Fin 4) :
    val_main_v110 (F := Ideal) x0 x1 x2 x3 x4 x5 x6 x7 x8 x9 x10 (ix2 n ⟨6 + c.val, by omega⟩)
      = val_main_v3 (F := Ideal) x2 (ix2 n c) := by
  unfold val_main_v110
  exact concatenate_apply_piece (t := S2000000x23) 1 _ _ (ix2 n ⟨6 + c.val, by omega⟩) 2 (by show (2 : Nat) < 6; decide) S2000000x4 _ rfl rfl 6 rfl (ix2 n c)
    (fun b => match b with | ⟨0, _⟩ => fun _ => rfl | ⟨1, _⟩ => fun hb => absurd rfl hb) rfl

theorem out_opacity (n : Fin 2000000) (c : Fin 1) :
    val_main_v110 (F := Ideal) x0 x1 x2 x3 x4 x5 x6 x7 x8 x9 x10 (ix2 n ⟨10 + c.val, by omega⟩)
      = val_main_v88 (F := Ideal) x3 (ix2 n c) := by
  unfold val_main_v110
  exact concatenate_apply_piece (t := S2000000x23) 1 _ _ (ix2 n ⟨10 + c.val, by omega⟩) 3 (by show (3 : Nat) < 6; decide) S2000000x1 _ rfl rfl 10 rfl (ix2 n c)
    (fun b => match b with | ⟨0, _⟩ => fun _ => rfl | ⟨1, _⟩ => fun hb => absurd rfl hb) rfl

theorem out_colour (n : Fin 2000000) (c : Fin 3) :
    val_main_v110 (F := Ideal) x0 x1 x2 x3 x4 x5 x6 x7 x8 x9 x10 (ix2 n ⟨11 + c.val, by omega⟩)
      = val_main_v108 (F := Ideal) x4 x5 x6 x7 x8 x9 x10 (ix2 n c) := by
  unfold val_main_v110
  exact concatenate_apply_piece (t := S2000000x23) 1 _ _ (ix2 n ⟨11 + c.val, by omega⟩) 4 (by show (4 : Nat) < 6; decide) S2000000x3 _ rfl rfl 11 rfl (ix2 n c)
    (fun b => match b with | ⟨0, _⟩ => fun _ => rfl | ⟨1, _⟩ => fun hb => absurd rfl hb) rfl

theorem out_cov (n : Fin 2000000) (c : Fin 9) :
    val_main_v110 (F := Ideal) x0 x1 x2 x3 x4 x5 x6 x7 x8 x9 x10 (ix2 n ⟨14 + c.val, by omega⟩)
      = val_main_v109 (F := Ideal) x1 x2 (ix2 n c) := by
  unfold val_main_v110
  exact concatenate_apply_piece (t := S2000000x23) 1 _ _ (ix2 n ⟨14 + c.val, by omega⟩) 5 (by show (5 : Nat) < 6; decide) S2000000x9 _ rfl rfl 14 rfl (ix2 n c)
    (fun b => match b with | ⟨0, _⟩ => fun _ => rfl | ⟨1, _⟩ => fun hb => absurd rfl hb) rfl

/-! ## The unit quaternion -/

/-- The squared length is summed over the row of the quaternion array the component sits in. -/
theorem idx_nsq (n : Fin 2000000) (c k : Fin 4) :
    idx_main_call0_v1 (idx_main_call0_v2 (idx_main_v2 (ix2 n c))) k = ix2 n k :=
  funext fun a => Fin.ext (by match a with | ⟨0, _⟩ => rfl | ⟨1, _⟩ => rfl)

/-- A component divided by the length (the square root of the sum, from the zero word, of the squares) is the unit
    quaternion's component. -/
theorem quat_eq (h : PosLen x2) (n : Fin 2000000) (c : Fin 4) :
    val_main_v3 (F := Ideal) x2 (ix2 n c) = unit (fun k => x2 (ix2 n k)) c := by
  rw [val_main_v3_apply, val_main_v2_apply, val_main_v1_apply, val_main_call0_v2_apply, val_main_call0_v1_apply]
  simp only [val_main_call0_v0_apply, val_main_call0_cst_apply, idx_nsq]
  exact unit_eq_div (fun k => x2 (ix2 n k)) (h n) c

/-! ## The opacity -/

theorem opacity_eq (n : Fin 2000000) (c : Fin 1) :
    val_main_v88 (F := Ideal) x3 (ix2 n c) = Ideal.logistic (x3 (ix2 n c)) := by
  rw [val_main_v88_apply, val_main_v87_apply, val_main_v86_apply, val_main_v85_apply, val_main_v84_apply, val_main_v83_apply,
    val_main_cst_11_apply, val_main_cst_12_apply]
  exact div_one_eq_logistic (x3 (ix2 n c))

/-! ## The colour network

Each layer is a contraction over the previous layer's outputs plus a bias spread along the Gaussians; the first two are
followed by a maximum with the zero word, the third by the sigmoid written out. -/

theorem idx_l1 (n : Fin 2000000) (j : Fin 64) (k : Fin 32) : lidx_main_v89 (ix2 n j) k = ix2 n k :=
  funext fun a => Fin.ext (by match a with | ⟨0, _⟩ => rfl | ⟨1, _⟩ => rfl)
theorem idx_r1 (n : Fin 2000000) (j : Fin 64) (k : Fin 32) : ridx_main_v89 (ix2 n j) k = ix2 k j :=
  funext fun a => Fin.ext (by match a with | ⟨0, _⟩ => rfl | ⟨1, _⟩ => rfl)
theorem idx_b1 (n : Fin 2000000) (j : Fin 64) : idx_main_v90 (idx_main_v91 (ix2 n j)) = ix1 j :=
  funext fun a => Fin.ext (by match a with | ⟨0, _⟩ => rfl)
theorem idx_l2 (n : Fin 2000000) (j : Fin 32) (k : Fin 64) : lidx_main_v94 (ix2 n j) k = ix2 n k :=
  funext fun a => Fin.ext (by match a with | ⟨0, _⟩ => rfl | ⟨1, _⟩ => rfl)
theorem idx_r2 (n : Fin 2000000) (j : Fin 32) (k : Fin 64) : ridx_main_v94 (ix2 n j) k = ix2 k j :=
  funext fun a => Fin.ext (by match a with | ⟨0, _⟩ => rfl | ⟨1, _⟩ => rfl)
theorem idx_b2 (n : Fin 2000000) (j : Fin 32) : idx_main_v95 (idx_main_v96 (ix2 n j)) = ix1 j :=
  funext fun a => Fin.ext (by match a with | ⟨0, _⟩ => rfl)
theorem idx_l3 (n : Fin 2000000) (j : Fin 3) (k : Fin 32) : lidx_main_v99 (ix2 n j) k = ix2 n k :=
  funext fun a => Fin.ext (by match a with | ⟨0, _⟩ => rfl | ⟨1, _⟩ => rfl)
theorem idx_r3 (n : Fin 2000000) (j : Fin 3) (k : Fin 32) : ridx_main_v99 (ix2 n j) k = ix2 k j :=
  funext fun a => Fin.ext (by match a with | ⟨0, _⟩ => rfl | ⟨1, _⟩ => rfl)
theorem idx_b3 (n : Fin 2000000) (j : Fin 3) : idx_main_v100 (idx_main_v101 (ix2 n j)) = ix1 j :=
  funext fun a => Fin.ext (by match a with | ⟨0, _⟩ => rfl)

/-- The first hidden layer of Gaussian `n`. -/
theorem hidden1_eq (n : Fin 2000000) (j : Fin 64) :
    val_main_v93 (F := Ideal) x4 x5 x6 (ix2 n j)
      = relu (layer (fun k j => x5 (ix2 k j)) (fun j => x6 (ix1 j)) (fun k => x4 (ix2 n k)) j) := by
  rw [val_main_v93_apply, val_main_v92_apply, val_main_v89_apply, val_main_v91_apply, val_main_v90_apply,
    val_main_call1_v0_apply, val_main_call1_cst_apply]
  simp only [idx_l1, idx_r1, idx_b1]
  exact congrArg (fun t => max t c0)
    (sum_comm_eq_layer (fun k j => x5 (ix2 k j)) (fun j => x6 (ix1 j)) (fun k => x4 (ix2 n k)) j)

/-- The second hidden layer of Gaussian `n`. -/
theorem hidden2_eq (n : Fin 2000000) (j : Fin 32) :
    val_main_v98 (F := Ideal) x4 x5 x6 x7 x8 (ix2 n j)
      = relu (layer (fun k j => x7 (ix2 k j)) (fun j => x8 (ix1 j))
          (fun k' => relu (layer (fun k j => x5 (ix2 k j)) (fun j => x6 (ix1 j)) (fun k => x4 (ix2 n k)) k')) j) := by
  rw [val_main_v98_apply, val_main_v97_apply, val_main_v94_apply, val_main_v96_apply, val_main_v95_apply,
    val_main_call2_v0_apply, val_main_call2_cst_apply]
  simp only [idx_l2, idx_r2, idx_b2, hidden1_eq]
  exact congrArg (fun t => max t c0)
    (sum_comm_eq_layer (fun k j => x7 (ix2 k j)) (fun j => x8 (ix1 j))
      (fun k' => relu (layer (fun k j => x5 (ix2 k j)) (fun j => x6 (ix1 j)) (fun k => x4 (ix2 n k)) k')) j)

/-- The colour of Gaussian `n`: the third layer and the sigmoid, written as a quotient with the word of `1.0`. -/
theorem colour_eq (n : Fin 2000000) (j : Fin 3) :
    val_main_v108 (F := Ideal) x4 x5 x6 x7 x8 x9 x10 (ix2 n j)
      = colour (fun k => x4 (ix2 n k)) (fun k j => x5 (ix2 k j)) (fun j => x6 (ix1 j)) (fun k j => x7 (ix2 k j))
          (fun j => x8 (ix1 j)) (fun k j => x9 (ix2 k j)) (fun j => x10 (ix1 j)) j := by
  rw [val_main_v108_apply, val_main_v107_apply, val_main_v106_apply, val_main_v105_apply, val_main_v104_apply,
    val_main_v103_apply, val_main_v102_apply, val_main_v99_apply, val_main_v101_apply, val_main_v100_apply,
    val_main_cst_13_apply, val_main_cst_14_apply]
  simp only [idx_l3, idx_r3, idx_b3, hidden2_eq]
  exact (congrArg (fun t => Ideal.div c1 (c1 + Ideal.exp (-t)))
    (sum_comm_eq_layer (fun k j => x9 (ix2 k j)) (fun j => x10 (ix1 j))
      (fun k => relu (layer (fun k j => x7 (ix2 k j)) (fun j => x8 (ix1 j))
        (fun k' => relu (layer (fun k j => x5 (ix2 k j)) (fun j => x6 (ix1 j)) (fun k => x4 (ix2 n k)) k')) k)) j)).trans
    (div_one_eq_logistic _)

/-! ## The rotation matrix of the unit quaternion

The four components are sliced out of the normalised quaternion array as arrays over the Gaussians; the nine entries are
written out from them, each spread to a column, three columns joined to a row, three rows stacked to the matrix. -/

theorem idx_q0 (n : Fin 2000000) : idx_main_v4 (idx_main_v5 (ix1 n)) = ix2 n 0 :=
  funext fun a => Fin.ext (by match a with | ⟨0, _⟩ => exact Nat.div_one _ | ⟨1, _⟩ => rfl)
theorem idx_q1 (n : Fin 2000000) : idx_main_v6 (idx_main_v7 (ix1 n)) = ix2 n 1 :=
  funext fun a => Fin.ext (by match a with | ⟨0, _⟩ => exact Nat.div_one _ | ⟨1, _⟩ => rfl)
theorem idx_q2 (n : Fin 2000000) : idx_main_v8 (idx_main_v9 (ix1 n)) = ix2 n 2 :=
  funext fun a => Fin.ext (by match a with | ⟨0, _⟩ => exact Nat.div_one _ | ⟨1, _⟩ => rfl)
theorem idx_q3 (n : Fin 2000000) : idx_main_v10 (idx_main_v11 (ix1 n)) = ix2 n 3 :=
  funext fun a => Fin.ext (by match a with | ⟨0, _⟩ => exact Nat.div_one _ | ⟨1, _⟩ => rfl)

theorem comp0_eq (h : PosLen x2) (n : Fin 2000000) :
    val_main_v5 (F := Ideal) x2 (ix1 n) = unit (fun k => x2 (ix2 n k)) 0 := by
  rw [val_main_v5_apply, val_main_v4_apply, idx_q0, quat_eq x2 h]
theorem comp1_eq (h : PosLen x2) (n : Fin 2000000) :
    val_main_v7 (F := Ideal) x2 (ix1 n) = unit (fun k => x2 (ix2 n k)) 1 := by
  rw [val_main_v7_apply, val_main_v6_apply, idx_q1, quat_eq x2 h]
theorem comp2_eq (h : PosLen x2) (n : Fin 2000000) :
    val_main_v9 (F := Ideal) x2 (ix1 n) = unit (fun k => x2 (ix2 n k)) 2 := by
  rw [val_main_v9_apply, val_main_v8_apply, idx_q2, quat_eq x2 h]
theorem comp3_eq (h : PosLen x2) (n : Fin 2000000) :
    val_main_v11 (F := Ideal) x2 (ix1 n) = unit (fun k => x2 (ix2 n k)) 3 := by
  rw [val_main_v11_apply, val_main_v10_apply, idx_q3, quat_eq x2 h]

/-- The nine entries, as arrays over the Gaussians. -/
theorem entries_eq (h : PosLen x2) (n : Fin 2000000) :
    (val_main_v18 (F := Ideal) x2 (ix1 n) = rotm (unit fun k => x2 (ix2 n k)) 0 0
      ∧ val_main_v23 (F := Ideal) x2 (ix1 n) = rotm (unit fun k => x2 (ix2 n k)) 0 1
      ∧ val_main_v28 (F := Ideal) x2 (ix1 n) = rotm (unit fun k => x2 (ix2 n k)) 0 2)
    ∧ (val_main_v33 (F := Ideal) x2 (ix1 n) = rotm (unit fun k => x2 (ix2 n k)) 1 0
      ∧ val_main_v40 (F := Ideal) x2 (ix1 n) = rotm (unit fun k => x2 (ix2 n k)) 1 1
      ∧ val_main_v45 (F := Ideal) x2 (ix1 n) = rotm (unit fun k => x2 (ix2 n k)) 1 2)
    ∧ (val_main_v50 (F := Ideal) x2 (ix1 n) = rotm (unit fun k => x2 (ix2 n k)) 2 0
      ∧ val_main_v55 (F := Ideal) x2 (ix1 n) = rotm (unit fun k => x2 (ix2 n k)) 2 1
      ∧ val_main_v62 (F := Ideal) x2 (ix1 n) = rotm (unit fun k => x2 (ix2 n k)) 2 2) := by
  refine ⟨⟨?_, ?_, ?_⟩, ⟨?_, ?_, ?_⟩, ⟨?_, ?_, ?_⟩⟩
  · rw [val_main_v18_apply, val_main_v17_apply, val_main_v16_apply, val_main_v15_apply, val_main_v14_apply, val_main_v12_apply,
      val_main_v13_apply, val_main_cst_apply, val_main_cst_0_apply, comp2_eq x2 h, comp3_eq x2 h]; rfl
  · rw [val_main_v23_apply, val_main_v22_apply, val_main_v21_apply, val_main_v19_apply, val_main_v20_apply,
      val_main_cst_1_apply, comp0_eq x2 h, comp1_eq x2 h, comp2_eq x2 h, comp3_eq x2 h]; rfl
  · rw [val_main_v28_apply, val_main_v27_apply, val_main_v26_apply, val_main_v24_apply, val_main_v25_apply,
      val_main_cst_2_apply, comp0_eq x2 h, comp1_eq x2 h, comp2_eq x2 h, comp3_eq x2 h]; rfl
  · rw [val_main_v33_apply, val_main_v32_apply, val_main_v31_apply, val_main_v29_apply, val_main_v30_apply,
      val_main_cst_3_apply, comp0_eq x2 h, comp1_eq x2 h, comp2_eq x2 h, comp3_eq x2 h]; rfl
  · rw [val_main_v40_apply, val_main_v39_apply, val_main_v38_apply, val_main_v37_apply, val_main_v36_apply, val_main_v34_apply,
      val_main_v35_apply, val_main_cst_4_apply, val_main_cst_5_apply, comp1_eq x2 h, comp3_eq x2 h]; rfl
  · rw [val_main_v45_apply, val_main_v44_apply, val_main_v43_apply, val_main_v41_apply, val_main_v42_apply,
      val_main_cst_6_apply, comp0_eq x2 h, comp1_eq x2 h, comp2_eq x2 h, comp3_eq x2 h]; rfl
  · rw [val_main_v50_apply, val_main_v49_apply, val_main_v48_apply, val_main_v46_apply, val_main_v47_apply,
      val_main_cst_7_apply, comp0_eq x2 h, comp1_eq x2 h, comp2_eq x2 h, comp3_eq x2 h]; rfl
  · rw [val_main_v55_apply, val_main_v54_apply, val_main_v53_apply, val_main_v51_apply, val_main_v52_apply,
      val_main_cst_8_apply, comp0_eq x2 h, comp1_eq x2 h, comp2_eq x2 h, comp3_eq x2 h]; rfl
  · rw [val_main_v62_apply, val_main_v61_apply, val_main_v60_apply, val_main_v59_apply, val_main_v58_apply, val_main_v56_apply,
      val_main_v57_apply, val_main_cst_9_apply, val_main_cst_10_apply, comp1_eq x2 h, comp2_eq x2 h]; rfl

/-- Three columns joined side by side, read at column `0`, `1`, `2`. -/
theorem cols3 (y0 y1 y2 : (⟨S2000000x1, .f32⟩ : BufTy).Contents (Elt Ideal))
    (hc : Shape.Concatenates [S2000000x1, S2000000x1, S2000000x1] S2000000x3 1) (n : Fin 2000000) :
    concatenate S2000000x3 1 [⟨S2000000x1, y0⟩, ⟨S2000000x1, y1⟩, ⟨S2000000x1, y2⟩] hc (ix2 n 0) = y0 (ix2 n 0)
    ∧ concatenate S2000000x3 1 [⟨S2000000x1, y0⟩, ⟨S2000000x1, y1⟩, ⟨S2000000x1, y2⟩] hc (ix2 n 1) = y1 (ix2 n 0)
    ∧ concatenate S2000000x3 1 [⟨S2000000x1, y0⟩, ⟨S2000000x1, y1⟩, ⟨S2000000x1, y2⟩] hc (ix2 n 2) = y2 (ix2 n 0) :=
  ⟨concatenate_apply_piece (t := S2000000x3) 1 _ _ (ix2 n 0) 0 (by show (0 : Nat) < 3; decide) S2000000x1 y0 rfl rfl 0 rfl (ix2 n 0)
      (fun b => match b with | ⟨0, _⟩ => fun _ => rfl | ⟨1, _⟩ => fun hb => absurd rfl hb) rfl,
   concatenate_apply_piece (t := S2000000x3) 1 _ _ (ix2 n 1) 1 (by show (1 : Nat) < 3; decide) S2000000x1 y1 rfl rfl 1 rfl (ix2 n 0)
      (fun b => match b with | ⟨0, _⟩ => fun _ => rfl | ⟨1, _⟩ => fun hb => absurd rfl hb) rfl,
   concatenate_apply_piece (t := S2000000x3) 1 _ _ (ix2 n 2) 2 (by show (2 : Nat) < 3; decide) S2000000x1 y2 rfl rfl 2 rfl (ix2 n 0)
      (fun b => match b with | ⟨0, _⟩ => fun _ => rfl | ⟨1, _⟩ => fun hb => absurd rfl hb) rfl⟩

/-- Three rows stacked, read at row `0`, `1`, `2`. -/
theorem rows3 (y0 y1 y2 : (⟨S2000000x1x3, .f32⟩ : BufTy).Contents (Elt Ideal))
    (hc : Shape.Concatenates [S2000000x1x3, S2000000x1x3, S2000000x1x3] S2000000x3x3 1) (n : Fin 2000000) (k : Fin 3) :
    concatenate S2000000x3x3 1 [⟨S2000000x1x3, y0⟩, ⟨S2000000x1x3, y1⟩, ⟨S2000000x1x3, y2⟩] hc (ix3 n 0 k) = y0 (ix3 n 0 k)
    ∧ concatenate S2000000x3x3 1 [⟨S2000000x1x3, y0⟩, ⟨S2000000x1x3, y1⟩, ⟨S2000000x1x3, y2⟩] hc (ix3 n 1 k) = y1 (ix3 n 0 k)
    ∧ concatenate S2000000x3x3 1 [⟨S2000000x1x3, y0⟩, ⟨S2000000x1x3, y1⟩, ⟨S2000000x1x3, y2⟩] hc (ix3 n 2 k) = y2 (ix3 n 0 k) :=
  ⟨concatenate_apply_piece (t := S2000000x3x3) 1 _ _ (ix3 n 0 k) 0 (by show (0 : Nat) < 3; decide) S2000000x1x3 y0 rfl rfl 0 rfl (ix3 n 0 k)
      (fun b => match b with | ⟨0, _⟩ => fun _ => rfl | ⟨1, _⟩ => fun hb => absurd rfl hb | ⟨2, _⟩ => fun _ => rfl) rfl,
   concatenate_apply_piece (t := S2000000x3x3) 1 _ _ (ix3 n 1 k) 1 (by show (1 : Nat) < 3; decide) S2000000x1x3 y1 rfl rfl 1 rfl (ix3 n 0 k)
      (fun b => match b with | ⟨0, _⟩ => fun _ => rfl | ⟨1, _⟩ => fun hb => absurd rfl hb | ⟨2, _⟩ => fun _ => rfl) rfl,
   concatenate_apply_piece (t := S2000000x3x3) 1 _ _ (ix3 n 2 k) 2 (by show (2 : Nat) < 3; decide) S2000000x1x3 y2 rfl rfl 2 rfl (ix3 n 0 k)
      (fun b => match b with | ⟨0, _⟩ => fun _ => rfl | ⟨1, _⟩ => fun hb => absurd rfl hb | ⟨2, _⟩ => fun _ => rfl) rfl⟩

/-- An entry spread to a column is read at its Gaussian. -/
theorem idx_cols (n : Fin 2000000) :
    (idx_main_v63 (ix2 n 0) = ix1 n ∧ idx_main_v64 (ix2 n 0) = ix1 n ∧ idx_main_v65 (ix2 n 0) = ix1 n)
    ∧ (idx_main_v67 (ix2 n 0) = ix1 n ∧ idx_main_v68 (ix2 n 0) = ix1 n ∧ idx_main_v69 (ix2 n 0) = ix1 n)
    ∧ (idx_main_v71 (ix2 n 0) = ix1 n ∧ idx_main_v72 (ix2 n 0) = ix1 n ∧ idx_main_v73 (ix2 n 0) = ix1 n) := by
  refine ⟨⟨?_, ?_, ?_⟩, ⟨?_, ?_, ?_⟩, ⟨?_, ?_, ?_⟩⟩ <;>
    exact funext fun a => Fin.ext (by match a with | ⟨0, _⟩ => rfl)
/-- A row of the matrix, spread to one row of a stack, is read at its Gaussian and column. -/
theorem idx_rows (n : Fin 2000000) (k : Fin 3) :
    idx_main_v75 (ix3 n 0 k) = ix2 n k ∧ idx_main_v76 (ix3 n 0 k) = ix2 n k ∧ idx_main_v77 (ix3 n 0 k) = ix2 n k := by
  refine ⟨?_, ?_, ?_⟩ <;>
    exact funext fun a => Fin.ext (by match a with | ⟨0, _⟩ => rfl | ⟨1, _⟩ => rfl)

/-- The three rows of the rotation matrix. -/
theorem row0_eq (h : PosLen x2) (n : Fin 2000000) (k : Fin 3) :
    val_main_v66 (F := Ideal) x2 (ix2 n k) = rotm (unit fun k => x2 (ix2 n k)) 0 k := by
  obtain ⟨⟨e0, e1, e2⟩, -, -⟩ := entries_eq x2 h n
  obtain ⟨⟨i0, i1, i2⟩, -, -⟩ := idx_cols n
  obtain ⟨p0, p1, p2⟩ := cols3 (val_main_v63 (F := Ideal) x2) (val_main_v64 (F := Ideal) x2) (val_main_v65 (F := Ideal) x2)
    Gen.concatenates_S2000000x1_S2000000x1_S2000000x1_S2000000x3_d1 n
  match k with
  | ⟨0, _⟩ => exact p0.trans (by rw [val_main_v63_apply, i0]; exact e0)
  | ⟨1, _⟩ => exact p1.trans (by rw [val_main_v64_apply, i1]; exact e1)
  | ⟨2, _⟩ => exact p2.trans (by rw [val_main_v65_apply, i2]; exact e2)

theorem row1_eq (h : PosLen x2) (n : Fin 2000000) (k : Fin 3) :
    val_main_v70 (F := Ideal) x2 (ix2 n k) = rotm (unit fun k => x2 (ix2 n k)) 1 k := by
  obtain ⟨-, ⟨e0, e1, e2⟩, -⟩ := entries_eq x2 h n
  obtain ⟨-, ⟨i0, i1, i2⟩, -⟩ := idx_cols n
  obtain ⟨p0, p1, p2⟩ := cols3 (val_main_v67 (F := Ideal) x2) (val_main_v68 (F := Ideal) x2) (val_main_v69 (F := Ideal) x2)
    Gen.concatenates_S2000000x1_S2000000x1_S2000000x1_S2000000x3_d1 n
  match k with
  | ⟨0, _⟩ => exact p0.trans (by rw [val_main_v67_apply, i0]; exact e0)
  | ⟨1, _⟩ => exact p1.trans (by rw [val_main_v68_apply, i1]; exact e1)
  | ⟨2, _⟩ => exact p2.trans (by rw [val_main_v69_apply, i2]; exact e2)

theorem row2_eq (h : PosLen x2) (n : Fin 2000000) (k : Fin 3) :
    val_main_v74 (F := Ideal) x2 (ix2 n k) = rotm (unit fun k => x2 (ix2 n k)) 2 k := by
  obtain ⟨-, -, ⟨e0, e1, e2⟩⟩ := entries_eq x2 h n
  obtain ⟨-, -, ⟨i0, i1, i2⟩⟩ := idx_cols n
  obtain ⟨p0, p1, p2⟩ := cols3 (val_main_v71 (F := Ideal) x2) (val_main_v72 (F := Ideal) x2) (val_main_v73 (F := Ideal) x2)
    Gen.concatenates_S2000000x1_S2000000x1_S2000000x1_S2000000x3_d1 n
  match k with
  | ⟨0, _⟩ => exact p0.trans (by rw [val_main_v71_apply, i0]; exact e0)
  | ⟨1, _⟩ => exact p1.trans (by rw [val_main_v72_apply, i1]; exact e1)
  | ⟨2, _⟩ => exact p2.trans (by rw [val_main_v73_apply, i2]; exact e2)

/-- The stacked matrix is the rotation matrix of the unit quaternion. -/
theorem rot_eq (h : PosLen x2) (n : Fin 2000000) (a k : Fin 3) :
    val_main_v78 (F := Ideal) x2 (ix3 n a k) = rotm (unit fun k => x2 (ix2 n k)) a k := by
  obtain ⟨i0, i1, i2⟩ := idx_rows n k
  obtain ⟨p0, p1, p2⟩ := rows3 (val_main_v75 (F := Ideal) x2) (val_main_v76 (F := Ideal) x2) (val_main_v77 (F := Ideal) x2)
    Gen.concatenates_S2000000x1x3_S2000000x1x3_S2000000x1x3_S2000000x3x3_d1 n k
  match a with
  | ⟨0, _⟩ => exact p0.trans (by rw [val_main_v75_apply, i0]; exact row0_eq x2 h n k)
  | ⟨1, _⟩ => exact p1.trans (by rw [val_main_v76_apply, i1]; exact row1_eq x2 h n k)
  | ⟨2, _⟩ => exact p2.trans (by rw [val_main_v77_apply, i2]; exact row2_eq x2 h n k)

/-! ## The covariance -/

theorem idx_e (n : Fin 2000000) (a k : Fin 3) : idx_main_v79 (idx_main_v80 (ix3 n a k)) = ix2 n k :=
  funext fun d => Fin.ext (by match d with | ⟨0, _⟩ => rfl | ⟨1, _⟩ => rfl)
theorem idx_lc (n : Fin 2000000) (a b k : Fin 3) : lidx_main_v82 (ix3 n a b) k = ix3 n a k :=
  funext fun d => Fin.ext (by match d with | ⟨0, _⟩ => rfl | ⟨1, _⟩ => rfl | ⟨2, _⟩ => rfl)
theorem idx_rc (n : Fin 2000000) (a b k : Fin 3) : ridx_main_v82 (ix3 n a b) k = ix3 n b k :=
  funext fun d => Fin.ext (by match d with | ⟨0, _⟩ => rfl | ⟨1, _⟩ => rfl | ⟨2, _⟩ => rfl)

/-- The rotation matrix with column `k` scaled by `exp sₖ`. -/
theorem scaled_eq (h : PosLen x2) (n : Fin 2000000) (a k : Fin 3) :
    val_main_v81 (F := Ideal) x1 x2 (ix3 n a k)
      = rotm (unit fun k => x2 (ix2 n k)) a k * Ideal.exp (x1 (ix2 n k)) := by
  rw [val_main_v81_apply, val_main_v80_apply, val_main_v79_apply, idx_e, val_main_v0_apply, rot_eq x2 h]
  rfl

/-- The scaled matrix contracted with itself over its columns. -/
theorem gram_eq (h : PosLen x2) (n : Fin 2000000) (a b : Fin 3) :
    val_main_v82 (F := Ideal) x1 x2 (ix3 n a b)
      = cov (rotm (unit fun k => x2 (ix2 n k))) (fun k => Ideal.exp (x1 (ix2 n k))) a b := by
  rw [val_main_v82_apply]
  simp only [idx_lc, idx_rc, scaled_eq x1 x2 h]
  exact sum_eq_cov (rotm (unit fun k => x2 (ix2 n k))) (fun k => Ideal.exp (x1 (ix2 n k))) a b

/-- Entry `(a, b)` of the matrix is entry `3a + b` of its row-major reshape. -/
theorem idx_flat (n : Fin 2000000) (a b : Fin 3) :
    idx_main_v109 (ix2 n ⟨3 * a.val + b.val, by omega⟩) = ix3 n a b :=
  funext fun d => Fin.ext (by
    have ha := a.isLt; have hb := b.isLt
    match d with
    | ⟨0, _⟩ => show (n.val * 9 + (3 * a.val + b.val)) / 9 = n.val; omega
    | ⟨1, _⟩ => show (n.val * 9 + (3 * a.val + b.val)) / 3 % 3 = a.val; omega
    | ⟨2, _⟩ => show (n.val * 9 + (3 * a.val + b.val)) % 3 = b.val; omega)

theorem cov_eq (h : PosLen x2) (n : Fin 2000000) (a b : Fin 3) :
    val_main_v109 (F := Ideal) x1 x2 (ix2 n ⟨3 * a.val + b.val, by omega⟩)
      = cov (rotm (unit fun k => x2 (ix2 n k))) (fun k => Ideal.exp (x1 (ix2 n k))) a b := by
  rw [val_main_v109_apply, idx_flat, gram_eq x1 x2 h]

/-! ## The result -/

/-- The reference's result is `G`, when every quaternion has positive squared length. -/
theorem ref_eq (h : PosLen x2) :
    val_main_v110 (F := Ideal) x0 x1 x2 x3 x4 x5 x6 x7 x8 x9 x10 = G x0 x1 x2 x3 x4 x5 x6 x7 x8 x9 x10 := by
  funext i
  obtain ⟨n, c, rfl⟩ : ∃ (n : Fin 2000000) (c : Fin 23), i = ix2 n c := ⟨i 0, i 1, eq_ix2 i⟩
  match c with
  | ⟨0, _⟩ => exact out_pos x0 x1 x2 x3 x4 x5 x6 x7 x8 x9 x10 n 0
  | ⟨1, _⟩ => exact out_pos x0 x1 x2 x3 x4 x5 x6 x7 x8 x9 x10 n 1
  | ⟨2, _⟩ => exact out_pos x0 x1 x2 x3 x4 x5 x6 x7 x8 x9 x10 n 2
  | ⟨3, _⟩ => exact out_scale x0 x1 x2 x3 x4 x5 x6 x7 x8 x9 x10 n 0
  | ⟨4, _⟩ => exact out_scale x0 x1 x2 x3 x4 x5 x6 x7 x8 x9 x10 n 1
  | ⟨5, _⟩ => exact out_scale x0 x1 x2 x3 x4 x5 x6 x7 x8 x9 x10 n 2
  | ⟨6, _⟩ => exact (out_quat x0 x1 x2 x3 x4 x5 x6 x7 x8 x9 x10 n 0).trans (quat_eq x2 h n 0)
  | ⟨7, _⟩ => exact (out_quat x0 x1 x2 x3 x4 x5 x6 x7 x8 x9 x10 n 1).trans (quat_eq x2 h n 1)
  | ⟨8, _⟩ => exact (out_quat x0 x1 x2 x3 x4 x5 x6 x7 x8 x9 x10 n 2).trans (quat_eq x2 h n 2)
  | ⟨9, _⟩ => exact (out_quat x0 x1 x2 x3 x4 x5 x6 x7 x8 x9 x10 n 3).trans (quat_eq x2 h n 3)
  | ⟨10, _⟩ => exact (out_opacity x0 x1 x2 x3 x4 x5 x6 x7 x8 x9 x10 n 0).trans (opacity_eq x3 n 0)
  | ⟨11, _⟩ => exact (out_colour x0 x1 x2 x3 x4 x5 x6 x7 x8 x9 x10 n 0).trans (colour_eq x4 x5 x6 x7 x8 x9 x10 n 0)
  | ⟨12, _⟩ => exact (out_colour x0 x1 x2 x3 x4 x5 x6 x7 x8 x9 x10 n 1).trans (colour_eq x4 x5 x6 x7 x8 x9 x10 n 1)
  | ⟨13, _⟩ => exact (out_colour x0 x1 x2 x3 x4 x5 x6 x7 x8 x9 x10 n 2).trans (colour_eq x4 x5 x6 x7 x8 x9 x10 n 2)
  | ⟨14, _⟩ => exact (out_cov x0 x1 x2 x3 x4 x5 x6 x7 x8 x9 x10 n 0).trans (cov_eq x1 x2 h n 0 0)
  | ⟨15, _⟩ => exact (out_cov x0 x1 x2 x3 x4 x5 x6 x7 x8 x9 x10 n 1).trans (cov_eq x1 x2 h n 0 1)
  | ⟨16, _⟩ => exact (out_cov x0 x1 x2 x3 x4 x5 x6 x7 x8 x9 x10 n 2).trans (cov_eq x1 x2 h n 0 2)
  | ⟨17, _⟩ => exact ((out_cov x0 x1 x2 x3 x4 x5 x6 x7 x8 x9 x10 n 3).trans (cov_eq x1 x2 h n 1 0)).trans (cov_symm _ _ 1 0)
  | ⟨18, _⟩ => exact (out_cov x0 x1 x2 x3 x4 x5 x6 x7 x8 x9 x10 n 4).trans (cov_eq x1 x2 h n 1 1)
  | ⟨19, _⟩ => exact (out_cov x0 x1 x2 x3 x4 x5 x6 x7 x8 x9 x10 n 5).trans (cov_eq x1 x2 h n 1 2)
  | ⟨20, _⟩ => exact ((out_cov x0 x1 x2 x3 x4 x5 x6 x7 x8 x9 x10 n 6).trans (cov_eq x1 x2 h n 2 0)).trans (cov_symm _ _ 2 0)
  | ⟨21, _⟩ => exact ((out_cov x0 x1 x2 x3 x4 x5 x6 x7 x8 x9 x10 n 7).trans (cov_eq x1 x2 h n 2 1)).trans (cov_symm _ _ 2 1)
  | ⟨22, _⟩ => exact (out_cov x0 x1 x2 x3 x4 x5 x6 x7 x8 x9 x10 n 8).trans (cov_eq x1 x2 h n 2 2)
  | ⟨k + 23, hk⟩ => exact absurd hk (by omega)

end Cert.Splat.Ref

end
-- ==== Proof.lean ====
/-
  Two programs compute, for each of 2,000,000 Gaussians, the same 23 numbers from its position, log-scales, quaternion,
  opacity logit and feature vector and from three small affine layers (Proof/Spec.lean says which numbers). One program
  computes them block by block, 16,000 Gaussians at a time, with the Gaussians along the second axis of every intermediate
  array, and transposes at the end; the other computes them on whole arrays with the Gaussians along the first axis.

  At the extended reals the two results are the same array `G` of the arguments, index by index, provided every quaternion
  has positive squared length, which the precondition states (Proof/PreDecode.lean). The first program's result is `G` by
  Proof/KernelRow.lean (what one grid point computes, entry by entry) and Proof/KernelValue.lean (the blocks cover the
  array; the transpose); the second program's is `G` by Proof/RefValue.lean. The two differ in how the unit quaternion
  is formed (a product with the inverse square root of the squared length, against a quotient by the length: equal when
  the squared length is positive), in the grouping of the covariance's products, and in the order of the factors in the
  layers' dot products; sums and products of extended reals are commutative and associative, so the last two need no
  hypothesis.

  The three frames: each program terminates without a fault and leaves its arguments unchanged. The idealization rewrote
  nothing, so there is nothing to preserve.
-/
import proofs.«165548_j52338471469394_2_alg».proof.Defs
import proofs.«165548_j52338471469394_2_alg».proof.Proof.Gen.Kernel
import proofs.«165548_j52338471469394_2_alg».proof.Proof.Gen.Kernel.Skeleton
import proofs.«165548_j52338471469394_2_alg».proof.Proof.Gen.Kernel.Launch
import proofs.«165548_j52338471469394_2_alg».proof.Proof.Gen.Kernel.Points
import proofs.«165548_j52338471469394_2_alg».proof.Proof.Gen.Kernel.Frame
import proofs.«165548_j52338471469394_2_alg».proof.Proof.Gen.KernelIdeal
import proofs.«165548_j52338471469394_2_alg».proof.Proof.Gen.KernelIdeal.Skeleton
import proofs.«165548_j52338471469394_2_alg».proof.Proof.Gen.KernelIdeal.Launch
import proofs.«165548_j52338471469394_2_alg».proof.Proof.Gen.KernelIdeal.Points
import proofs.«165548_j52338471469394_2_alg».proof.Proof.Gen.KernelIdeal.Frame
import proofs.«165548_j52338471469394_2_alg».proof.Proof.Gen.ReferenceIdeal
import proofs.«165548_j52338471469394_2_alg».proof.Proof.Gen.ReferenceIdeal.Run
import proofs.«165548_j52338471469394_2_alg».proof.Proof.Gen.ReferenceIdeal.Read
import proofs.«165548_j52338471469394_2_alg».proof.Proof.Gen.Pre_finite_inputs
import proofs.«165548_j52338471469394_2_alg».proof.Proof.Spec
import proofs.«165548_j52338471469394_2_alg».proof.Proof.PreDecode
import proofs.«165548_j52338471469394_2_alg».proof.Proof.KernelRow
import proofs.«165548_j52338471469394_2_alg».proof.Proof.KernelValue
import proofs.«165548_j52338471469394_2_alg».proof.Proof.RefValue
import Idealize.ShloMosaic.Adequacy
import Idealize.ShloMosaic.Init

noncomputable section

namespace Cert.Proof

open Idealize.ShloMosaic Idealize.SL.Sem

/-- The first program as printed runs and keeps its arguments. -/
theorem frame_kernel : Cert.frame_Kernel :=
  fun m ρ _ => Cert.Kernel.Gen.frame m ρ

/-- So does its reading at the extended reals. -/
theorem frame_ideal : Cert.frame_KernelIdeal :=
  fun m ρ _ => Cert.KernelIdeal.Gen.frame m ρ

/-- The second program runs and keeps its arguments: its run, with the result dropped. -/
theorem frame_ref : Cert.frame_ReferenceIdeal :=
  fun m ρ _ =>
    (θ_run Cert.ReferenceIdeal.defs _ _).mono (fun _ h c => (h c).2) (Cert.ReferenceIdeal.Value.run (F := Ideal) m ρ)

/-- Both results are `G` of the arguments: the first program's by its run read block by block, the second's by its run
    read operation by operation, where the precondition makes every quaternion's squared length positive. -/
theorem algebraic : Cert.algebraic_KernelIdeal_ReferenceIdeal := by
  intro m ρ m' ρ' hpre hagree
  refine ⟨fun c => Cert.Splat.Kernel.res m c, Cert.Splat.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq]
  obtain ⟨g0, g1, g2, g3, g4, g5, g6, g7, g8, g9, g10⟩ := hagree c
  rw [g0, g1, g2, g3, g4, g5, g6, g7, g8, g9, g10]
  exact Cert.Splat.Ref.ref_eq _ _ _ _ _ _ _ _ _ _ _
    (Cert.Splat.Pre.posLen_of_pre _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
